-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096 .f32) (main_arg3 : FVec F S4096x4096 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S512x512 : Shape := ⟨2, ![512, 512]⟩
abbrev S512x4096 : Shape := ⟨2, ![512, 4096]⟩
abbrev S1x4096 : Shape := ⟨2, ![1, 4096]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096x4096, .bf16⟩
  | .hbm, ⟨7, _⟩ => ⟨S4096x4096, .f32⟩
  | .hbm, ⟨8, _⟩ => ⟨S4096x4096, .bf16⟩
  | .hbm, ⟨9, _⟩ => ⟨S8192x4096, .f32⟩
  | .local _ .vmem, ⟨0, _⟩ => ⟨S512x512, .f32⟩
  | .local _ .vmem, ⟨1, _⟩ => ⟨S512x512, .f32⟩
  | .local _ .vmem, ⟨2, _⟩ => ⟨S512x4096, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S4096, .f32⟩
  | .local _ .vmem, ⟨7, _⟩ => ⟨S4096, .f32⟩
  | .local _ .vmem, ⟨8, _⟩ => ⟨S512x4096, .f32⟩
  | .local _ .vmem, ⟨9, _⟩ => ⟨S512x4096, .f32⟩
  | .local _ .vmem, ⟨10, _⟩ => ⟨S512x4096, .f32⟩
  | .local _ .vmem, ⟨11, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c512_i32 : BitVec 32 := 512#32
  let v4 : BitVec 32 := Scalar.muli arg1 c512_i32
  v4
def k0_off1 (i : grid0.Coords) : Fin 2 → Nat :=
  let c0_2 : Index := 0#32
  let arg1 : BitVec 32 := BitVec.ofNat 32 (i 1).val
  let c512_i32 : BitVec 32 := 512#32
  let v4 : BitVec 32 := Scalar.muli arg1 c512_i32
  let v5 : BitVec 32 := v4
  let v6 : Index := Scalar.indexCast v5
  ![0, v6.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S4096x4096_S4096x4096_1_0 : S4096x4096.Transposes [1, 0] S4096x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x512_S512x512_0_0 : ∀ a, (![0, 0] : Fin 2 → Nat) a + S512x512.size a ≤ S512x512.size a
  h_S512x512 : 0 < S512x512.numel
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S512x4096 : S1x4096.Broadcasts S512x4096
  reduces_S512x4096_S512 : S512x4096.Reduces [1] S512
  shapeCasts_S512_S512x1 : S512.ShapeCasts S512x1
  broadcasts_S512x1_S512x4096 : S512x1.Broadcasts S512x4096
  dot_S512x512_S512x4096_S512x4096_1_0_0_1_n_n_wf : DotDims.WF S512x512 S512x4096 S512x4096 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x512.size a ≤ S512x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x4096.size a
  hwx0_0 : ∀ i : grid0.Coords, EltTy.bits .f32 = 32 ∨ (Rect.block (s := S8192x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .bf16 = 32 ∨ (Rect.block (s := S4096x4096) S512x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S4096.size a
  hwx0_3 : ∀ i : grid0.Coords, EltTy.bits .f32 = 32 ∨ (Rect.block (s := S4096) S4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096.size a ≤ S4096.size a
  hwx0_4 : ∀ i : grid0.Coords, EltTy.bits .f32 = 32 ∨ (Rect.block (s := S4096) S4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S8192x4096.size a
  hwx0_5 : ∀ i : grid0.Coords, EltTy.bits .f32 = 32 ∨ (Rect.block (s := S8192x4096) S512x4096.size (cc0_transform_5 i) (hinb0_5 i)).WholeWords (EltTy.packing .f32)

variable [Facts₀]

def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩
abbrev S8192 : Shape := ⟨1, ![8192]⟩
abbrev S8192x1 : Shape := ⟨2, ![8192, 1]⟩

abbrev nBuf : Space → Nat
  | .hbm => 43
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192x1, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x1, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x4096, .f32⟩
  | .hbm, ⟨41, _⟩ => ⟨S8192x4096, .f32⟩
  | .hbm, ⟨42, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  reducesTo_S8192x4096_S8192_d1 : S8192x4096.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.BodyDefsW.lean ====
/-
  The row-tile kernel's body, shared definitions.  The grid is 16 row tiles by 8 column chunks, walked row tile
  by row tile; point t = 8·i + j works on row tile i and chunk j of the contracted axis.  The body resets its
  two accumulators exactly at j = 0 and finishes the row tile (bias, both softmaxes, residual) exactly at j = 7:
  both conditions are decided here over the whole grid, as congruences of the point modulo 8.
-/
import proofs.«140654_j38603166056700_2_alg».proof.Proof.Gen.Kernel.Frame
import proofs.«140654_j38603166056700_2_alg».proof.Proof.Gen.Kernel.Skeleton
import proofs.«140654_j38603166056700_2_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

/-- The reset branch is taken: the chunk coordinate is 0. -/
abbrev isFirst (i : grid0.Coords) : Prop :=
  (Scalar.cmpi .ne (Scalar.extui (Scalar.cmpi .eq (BitVec.ofNat 32 (i 1).val) 0#32)) 0#32) = 1#1

theorem isFirst_iff : ∀ t : Fin cfg0.N, isFirst (grid0.coords t) ↔ t.val % 8 = 0 :=
  (by decide +kernel : ∀ t : Fin grid0.N, isFirst (grid0.coords t) ↔ t.val % 8 = 0)

/-- The finishing branch is taken: the chunk coordinate is 7. -/
abbrev isLast (i : grid0.Coords) : Prop :=
  (Scalar.cmpi .ne (Scalar.extui (Scalar.cmpi .eq (BitVec.ofNat 32 (i 1).val) 7#32)) 0#32) = 1#1

theorem isLast_iff : ∀ t : Fin cfg0.N, isLast (grid0.coords t) ↔ t.val % 8 = 7 :=
  (by decide +kernel : ∀ t : Fin grid0.N, isLast (grid0.coords t) ↔ t.val % 8 = 7)

/-- The staging memref each window hands the body at point t, and that it is a whole buffer. -/
abbrev mf (t : Fin cfg0.N) : Memref sig .tc .vmem S512x512 .f32 := win0_0.stage (cfg0.slots t 0)
abbrev hmf (t : Fin cfg0.N) : (mf t).IsWhole := hstage0_0 ((cfg0.slots t 0).cast nbuf0_0)
abbrev mw1 (t : Fin cfg0.N) : Memref sig .tc .vmem S512x4096 .bf16 := win0_1.stage (cfg0.slots t 1)
abbrev hmw1 (t : Fin cfg0.N) : (mw1 t).IsWhole := hstage0_1 ((cfg0.slots t 1).cast nbuf0_1)
abbrev mw2 (t : Fin cfg0.N) : Memref sig .tc .vmem S512x4096 .bf16 := win0_2.stage (cfg0.slots t 2)
abbrev hmw2 (t : Fin cfg0.N) : (mw2 t).IsWhole := hstage0_2 ((cfg0.slots t 2).cast nbuf0_2)
abbrev mb1 (t : Fin cfg0.N) : Memref sig .tc .vmem S4096 .f32 := win0_3.stage (cfg0.slots t 3)
abbrev hmb1 (t : Fin cfg0.N) : (mb1 t).IsWhole := hstage0_3 ((cfg0.slots t 3).cast nbuf0_3)
abbrev mb2 (t : Fin cfg0.N) : Memref sig .tc .vmem S4096 .f32 := win0_4.stage (cfg0.slots t 4)
abbrev hmb2 (t : Fin cfg0.N) : (mb2 t).IsWhole := hstage0_4 ((cfg0.slots t 4).cast nbuf0_4)
abbrev mo (t : Fin cfg0.N) : Memref sig .tc .vmem S512x4096 .f32 := win0_5.stage (cfg0.slots t 5)
abbrev hmo (t : Fin cfg0.N) : (mo t).IsWhole := hstage0_5 ((cfg0.slots t 5).cast nbuf0_5)

/-- The two accumulators: scratch buffers of the kernel's own, whole. -/
abbrev acc1M : Memref sig .tc .vmem S512x4096 .f32 := Memref.whole cc0_scratch0
abbrev acc2M : Memref sig .tc .vmem S512x4096 .f32 := Memref.whole cc0_scratch1

/-- What the region hands the body besides the windows: both accumulators at some contents, and the generator register. -/
theorem restInv_eq (c : Dev nD) :
    (Pipeline.ΦA spec0 c : sProp 𝕄)
      = iprop(iprop((∃ d, owns (c : Thread nD τ) acc1M fullShare d) ∗ (∃ d, owns (c : Thread nD τ) acc2M fullShare d)) ∗ (∃ r, prngReg c r)) := by
  unfold Pipeline.ΦA; rw [scopedRest0_eq]; simp only [acc1M, acc2M, owns_whole]; try rfl

end Cert.Kernel.Hand

end
-- ==== Proof.RunFirstW.lean ====
/-
  The body at a first-chunk point (j = 0): both accumulators are zeroed and then take this chunk's two products;
  the output buffer, whatever it held, has column chunk 0 overwritten by the chunk of f.  The lists of stores each
  buffer ends with are found by running the body symbolically.
-/
import proofs.«140654_j38603166056700_2_alg».proof.Proof.BodyDefsW

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

set_option maxHeartbeats 1000000 in
/-- The run at j = 0: the stores left in the two accumulators (over anything) and, for any prior contents yo of the output buffer, the stores left in it over yo. -/
noncomputable def runFirst (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096 .f32) (harg5 : arg5.IsWhole) (arg6 : Memref sig .tc .vmem S4096 .f32) (harg6 : arg6.IsWhole) (arg7 : Memref sig .tc .vmem S512x4096 .f32) (harg7 : arg7.IsWhole) (arg8 : Memref sig .tc .vmem S512x4096 .f32) (harg8 : arg8.IsWhole) (arg9 : Memref sig .tc .vmem S512x4096 .f32) (harg9 : arg9.IsWhole) (hc0 : isFirst i) (hc1 : ¬isLast i)
    (x0 : Vec F S512x512 .f32) (x1 : Vec F S512x4096 .bf16) (x2 : Vec F S512x4096 .bf16) (x3 : Vec F S4096 .f32) (x4 : Vec F S4096 .f32) :
    Σ' (LA : List (View.Piece (Elt F) S512x4096 .f32)) (LB : List (View.Piece (Elt F) S512x4096 .f32)), (yo : Vec F S512x4096 .f32) → { LO : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare yo ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread yo) LO) ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LB)) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9) K } := by
  refine ⟨?_, ?_, fun yo => ⟨?_, fun E K => ?run⟩⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexact H5
    isplitl [HS0]; · iexists _; iexact HS0
    iexists _; iexact HS1

end Cert.Kernel.Hand

end
-- ==== Proof.RunMidW.lean ====
/-
  The body at a middle point (0 < j < 7): each accumulator, holding the partial products of the chunks before,
  takes this chunk's product; the output buffer has column chunk j overwritten by the chunk of f.
-/
import proofs.«140654_j38603166056700_2_alg».proof.Proof.RunFirstW

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

set_option maxHeartbeats 1000000 in
/-- The run at 0 < j < 7, the accumulators found at xa and xb. -/
noncomputable def runMid (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096 .f32) (harg5 : arg5.IsWhole) (arg6 : Memref sig .tc .vmem S4096 .f32) (harg6 : arg6.IsWhole) (arg7 : Memref sig .tc .vmem S512x4096 .f32) (harg7 : arg7.IsWhole) (arg8 : Memref sig .tc .vmem S512x4096 .f32) (harg8 : arg8.IsWhole) (arg9 : Memref sig .tc .vmem S512x4096 .f32) (harg9 : arg9.IsWhole) (hc0 : ¬isFirst i) (hc1 : ¬isLast i)
    (x0 : Vec F S512x512 .f32) (x1 : Vec F S512x4096 .bf16) (x2 : Vec F S512x4096 .bf16) (x3 : Vec F S4096 .f32) (x4 : Vec F S4096 .f32) (xa xb : Vec F S512x4096 .f32) :
    Σ' (LA : List (View.Piece (Elt F) S512x4096 .f32)) (LB : List (View.Piece (Elt F) S512x4096 .f32)), (yo : Vec F S512x4096 .f32) → { LO : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare yo ∗ owns (c : Thread nD τ) arg8 fullShare xa ∗ owns (c : Thread nD τ) arg9 fullShare xb
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread yo) LO) ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LB)) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9) K } := by
  refine ⟨?_, ?_, fun yo => ⟨?_, fun E K => ?run⟩⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexact H5
    isplitl [HS0]; · iexists _; iexact HS0
    iexists _; iexact HS1

end Cert.Kernel.Hand

end
-- ==== Proof.RunLastW.lean ====
/-
  The body at a last-chunk point (j = 7): the accumulators take the last product, then the bias is added, both
  row softmaxes are formed, and the whole output block is stored: its own contents (by now the row tile of f,
  the last chunk just written) plus the two softmaxes.
-/
import proofs.«140654_j38603166056700_2_alg».proof.Proof.RunMidW

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

set_option maxHeartbeats 1000000 in
/-- The run at j = 7, the accumulators found at xa and xb. -/
noncomputable def runLast (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096 .f32) (harg5 : arg5.IsWhole) (arg6 : Memref sig .tc .vmem S4096 .f32) (harg6 : arg6.IsWhole) (arg7 : Memref sig .tc .vmem S512x4096 .f32) (harg7 : arg7.IsWhole) (arg8 : Memref sig .tc .vmem S512x4096 .f32) (harg8 : arg8.IsWhole) (arg9 : Memref sig .tc .vmem S512x4096 .f32) (harg9 : arg9.IsWhole) (hc0 : ¬isFirst i) (hc1 : isLast i)
    (x0 : Vec F S512x512 .f32) (x1 : Vec F S512x4096 .bf16) (x2 : Vec F S512x4096 .bf16) (x3 : Vec F S4096 .f32) (x4 : Vec F S4096 .f32) (xa xb : Vec F S512x4096 .f32) :
    Σ' (LA : List (View.Piece (Elt F) S512x4096 .f32)) (LB : List (View.Piece (Elt F) S512x4096 .f32)), (yo : Vec F S512x4096 .f32) → { LO : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare yo ∗ owns (c : Thread nD τ) arg8 fullShare xa ∗ owns (c : Thread nD τ) arg9 fullShare xb
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread yo) LO) ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LB)) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9) K } := by
  refine ⟨?_, ?_, fun yo => ⟨?_, fun E K => ?run⟩⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexact H5
    isplitl [HS0]; · iexists _; iexact HS0
    iexists _; iexact HS1

end Cert.Kernel.Hand

end
-- ==== Proof.BodyDataW.lean ====
/-
  The proof data of the row-tile pipeline, and the body at every point.

  Between points the kernel carries three things.  The two accumulators are scratch buffers nobody else touches:
  what they hold after point t is a function of the blocks alone, by recursion on t (reset at j = 0, one more
  product at every j).  The output block's staging buffer is the third: it stays in place over the eight chunks of
  a row tile and is written back only after j = 7; at j = 0 it holds whatever the pipeline left there, and each
  point overwrites ONE column chunk of it.  So what the body leaves in it is stated as a function of what it found
  there (`outAt t Y`), not as a closed form — the proof data are relational.
-/
import proofs.«140654_j38603166056700_2_alg».proof.Proof.RunLastW

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases at a point of the grid -/

/-- The first-chunk run at point t (t ≡ 0 mod 8), on the point's staging buffers and blocks. -/
def firstAt (c : Dev nD) (t : Fin cfg0.N) (h0 : t.val % 8 = 0) (h1 : ¬t.val % 8 = 7) :=
  runFirst (F := F) c (grid0.coords t) (mf t) (hmf t) (mw1 t) (hmw1 t) (mw2 t) (hmw2 t) (mb1 t) (hmb1 t) (mb2 t) (hmb2 t) (mo t) (hmo t) acc1M (Memref.isWhole_whole _) acc2M (Memref.isWhole_whole _) ((isFirst_iff t).mpr h0) (fun h => h1 ((isLast_iff t).mp h)) (iblk m c 0 t) (iblk m c 1 t) (iblk m c 2 t) (iblk m c 3 t) (iblk m c 4 t)

/-- The middle run at point t (t mod 8 in 1..6), the accumulators found at xa, xb. -/
def midAt (c : Dev nD) (t : Fin cfg0.N) (h0 : ¬t.val % 8 = 0) (h1 : ¬t.val % 8 = 7) (xa xb : Vec F S512x4096 .f32) :=
  runMid (F := F) c (grid0.coords t) (mf t) (hmf t) (mw1 t) (hmw1 t) (mw2 t) (hmw2 t) (mb1 t) (hmb1 t) (mb2 t) (hmb2 t) (mo t) (hmo t) acc1M (Memref.isWhole_whole _) acc2M (Memref.isWhole_whole _) (fun h => h0 ((isFirst_iff t).mp h)) (fun h => h1 ((isLast_iff t).mp h)) (iblk m c 0 t) (iblk m c 1 t) (iblk m c 2 t) (iblk m c 3 t) (iblk m c 4 t) xa xb

/-- The last-chunk run at point t (t ≡ 7 mod 8), the accumulators found at xa, xb. -/
def lastAt (c : Dev nD) (t : Fin cfg0.N) (h0 : ¬t.val % 8 = 0) (h1 : t.val % 8 = 7) (xa xb : Vec F S512x4096 .f32) :=
  runLast (F := F) c (grid0.coords t) (mf t) (hmf t) (mw1 t) (hmw1 t) (mw2 t) (hmw2 t) (mb1 t) (hmb1 t) (mb2 t) (hmb2 t) (mo t) (hmo t) acc1M (Memref.isWhole_whole _) acc2M (Memref.isWhole_whole _) (fun h => h0 ((isFirst_iff t).mp h)) ((isLast_iff t).mpr h1) (iblk m c 0 t) (iblk m c 1 t) (iblk m c 2 t) (iblk m c 3 t) (iblk m c 4 t) xa xb

/-- A list of stores into an accumulator, read back (over anything: each case's stores cover it). -/
def readAcc1 (L : List (View.Piece (Elt F) S512x4096 .f32)) : Vec F S512x4096 .f32 := acc1M.view.read (Elt F) (acc1M.view.writes (Elt F) acc1M.view.junk L)
def readAcc2 (L : List (View.Piece (Elt F) S512x4096 .f32)) : Vec F S512x4096 .f32 := acc2M.view.read (Elt F) (acc2M.view.writes (Elt F) acc2M.view.junk L)

/-- A list of stores into the output's staging buffer at point t, read back over the contents Y found there. -/
def readOut (t : Fin cfg0.N) (Y : Vec F S512x4096 .f32) (L : List (View.Piece (Elt F) S512x4096 .f32)) : Vec F S512x4096 .f32 :=
  (mo t).view.read (Elt F) ((mo t).view.writes (Elt F) ((hmo t).unread Y) L)

/-! ## The accumulators, point by point -/

/-- What the two accumulators hold after the body at position n. -/
def accAt (c : Dev nD) : (n : ℕ) → n < cfg0.N → Vec F S512x4096 .f32 × Vec F S512x4096 .f32
  | 0, hn => (readAcc1 (firstAt m c ⟨0, hn⟩ (Nat.zero_mod _) (fun h => by have h' : 0 % 8 = 7 := h; omega)).1, readAcc2 (firstAt m c ⟨0, hn⟩ (Nat.zero_mod _) (fun h => by have h' : 0 % 8 = 7 := h; omega)).2.1)
  | n + 1, hn =>
    if h0 : (n + 1) % 8 = 0 then
      (readAcc1 (firstAt m c ⟨n + 1, hn⟩ h0 (fun h => by have h' : (n + 1) % 8 = 7 := h; omega)).1, readAcc2 (firstAt m c ⟨n + 1, hn⟩ h0 (fun h => by have h' : (n + 1) % 8 = 7 := h; omega)).2.1)
    else if h1 : (n + 1) % 8 = 7 then
      (readAcc1 (lastAt m c ⟨n + 1, hn⟩ h0 h1 (accAt c n (Nat.lt_of_succ_lt hn)).1 (accAt c n (Nat.lt_of_succ_lt hn)).2).1,
       readAcc2 (lastAt m c ⟨n + 1, hn⟩ h0 h1 (accAt c n (Nat.lt_of_succ_lt hn)).1 (accAt c n (Nat.lt_of_succ_lt hn)).2).2.1)
    else
      (readAcc1 (midAt m c ⟨n + 1, hn⟩ h0 h1 (accAt c n (Nat.lt_of_succ_lt hn)).1 (accAt c n (Nat.lt_of_succ_lt hn)).2).1,
       readAcc2 (midAt m c ⟨n + 1, hn⟩ h0 h1 (accAt c n (Nat.lt_of_succ_lt hn)).1 (accAt c n (Nat.lt_of_succ_lt hn)).2).2.1)

/-- The accumulators before point t (t not the first): what the point before left. -/
abbrev accBefore (c : Dev nD) (t : Fin cfg0.N) : Vec F S512x4096 .f32 × Vec F S512x4096 .f32 :=
  accAt m c (t.val - 1) (Nat.lt_of_le_of_lt (Nat.sub_le _ _) t.isLt)

theorem accAt_first (c : Dev nD) (t : Fin cfg0.N) (h0 : t.val % 8 = 0) (h1 : ¬t.val % 8 = 7) :
    accAt m c t.val t.isLt = (readAcc1 (firstAt m c t h0 h1).1, readAcc2 (firstAt m c t h0 h1).2.1) := by
  obtain ⟨n, hn⟩ := t
  cases n with
  | zero => exact rfl
  | succ n => exact (dif_pos h0).trans rfl

theorem accAt_mid (c : Dev nD) (t : Fin cfg0.N) (h0 : ¬t.val % 8 = 0) (h1 : ¬t.val % 8 = 7) :
    accAt m c t.val t.isLt = (readAcc1 (midAt m c t h0 h1 (accBefore m c t).1 (accBefore m c t).2).1,
      readAcc2 (midAt m c t h0 h1 (accBefore m c t).1 (accBefore m c t).2).2.1) := by
  obtain ⟨n, hn⟩ := t
  cases n with
  | zero => exact absurd (Nat.zero_mod _) h0
  | succ n => exact (dif_neg h0).trans ((dif_neg h1).trans rfl)

theorem accAt_last (c : Dev nD) (t : Fin cfg0.N) (h0 : ¬t.val % 8 = 0) (h1 : t.val % 8 = 7) :
    accAt m c t.val t.isLt = (readAcc1 (lastAt m c t h0 h1 (accBefore m c t).1 (accBefore m c t).2).1,
      readAcc2 (lastAt m c t h0 h1 (accBefore m c t).1 (accBefore m c t).2).2.1) := by
  obtain ⟨n, hn⟩ := t
  cases n with
  | zero => exact absurd (Nat.zero_mod _) h0
  | succ n => exact (dif_neg h0).trans ((dif_pos h1).trans rfl)

/-! ## The output's staging buffer: what a point leaves, given what it found -/

/-- What the body leaves in the output's staging buffer at point t if it found Y there. -/
def outAt (c : Dev nD) (t : Fin cfg0.N) (Y : Vec F S512x4096 .f32) : Vec F S512x4096 .f32 :=
  if h0 : t.val % 8 = 0 then
    readOut t Y (((firstAt m c t h0 (by omega)).2.2 Y).1)
  else if h1 : t.val % 8 = 7 then
    readOut t Y (((lastAt m c t h0 h1 (accBefore m c t).1 (accBefore m c t).2).2.2 Y).1)
  else
    readOut t Y (((midAt m c t h0 h1 (accBefore m c t).1 (accBefore m c t).2).2.2 Y).1)

/-! ## The invariant and the proof data -/

/-- The body's invariant before position n: at the start whatever the region hands over; afterwards the two
    accumulators at what the point before left, and the generator register. -/
def inv (c : Dev nD) : (n : ℕ) → n ≤ cfg0.N → sProp 𝕄
  | 0, _ => Pipeline.ΦA spec0 c
  | n + 1, hn => iprop(iprop(owns (c : Thread nD τ) acc1M fullShare ((accAt m c n hn).1) ∗ owns (c : Thread nD τ) acc2M fullShare ((accAt m c n hn).2)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) acc1M fullShare ((accAt m c n hn).1) ∗ owns (c : Thread nD τ) acc2M fullShare ((accAt m c n hn).2)) ∗ (∃ r, prngReg c r)) := rfl

theorem inv_pos (c : Dev nD) (n : ℕ) (h : n ≤ cfg0.N) (hz : n ≠ 0) :
    inv m c n h = iprop(iprop(owns (c : Thread nD τ) acc1M fullShare ((accAt m c (n - 1) (by omega)).1) ∗ owns (c : Thread nD τ) acc2M fullShare ((accAt m c (n - 1) (by omega)).2)) ∗ (∃ r, prngReg c r)) := by
  cases n with
  | zero => exact absurd rfl hz
  | succ n => rfl

/-- The relational proof data on core c: the arrays as the region finds them; every input's buffer left as found;
    the output's buffer left at `outAt t Y` if found at Y; the invariant `inv`; nothing owed; full shares. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = outAt m c t Y
  Φ t := inv m c t.val (Nat.le_of_lt_succ t.isLt)
  q _ := fullShare
  owed _ := 0

theorem rdat_A (c : Dev nD) (w : Fin cfg0.W) : (rdat m c).A w = V m c (Pipeline.arrRef spec0 w) := by
  dsimp only [rdat]

theorem inv_castSucc (c : Dev nD) (t : Fin cfg0.N) :
    (rdat m c).Φ t.castSucc = inv m c t.val (Nat.le_of_lt t.isLt) := by
  dsimp only [rdat]; simp only [Fin.coe_castSucc]

/-! ## Each input's buffer holds its block -/

theorem finds0 (c : Dev nD) (t : Fin cfg0.N) (Y) (h : (rdat m c).Finds 0 t Y) : Y = iblk m c 0 t := by
  obtain ⟨d, rfl⟩ := RDat.finds_in_eq_fetched (rdat m c) 0 rfl (fun _ _ _ => rfl) (fun _ _ _ h => h) t Y h
  unfold RDat.fetched RDat.blockOf iblk; rfl
theorem finds1 (c : Dev nD) (t : Fin cfg0.N) (Y) (h : (rdat m c).Finds 1 t Y) : Y = iblk m c 1 t := by
  obtain ⟨d, rfl⟩ := RDat.finds_in_eq_fetched (rdat m c) 1 rfl (fun _ _ _ => rfl) (fun _ _ _ h => h) t Y h
  unfold RDat.fetched RDat.blockOf iblk; rfl
theorem finds2 (c : Dev nD) (t : Fin cfg0.N) (Y) (h : (rdat m c).Finds 2 t Y) : Y = iblk m c 2 t := by
  obtain ⟨d, rfl⟩ := RDat.finds_in_eq_fetched (rdat m c) 2 rfl (fun _ _ _ => rfl) (fun _ _ _ h => h) t Y h
  unfold RDat.fetched RDat.blockOf iblk; rfl
theorem finds3 (c : Dev nD) (t : Fin cfg0.N) (Y) (h : (rdat m c).Finds 3 t Y) : Y = iblk m c 3 t := by
  obtain ⟨d, rfl⟩ := RDat.finds_in_eq_fetched (rdat m c) 3 rfl (fun _ _ _ => rfl) (fun _ _ _ h => h) t Y h
  unfold RDat.fetched RDat.blockOf iblk; rfl
theorem finds4 (c : Dev nD) (t : Fin cfg0.N) (Y) (h : (rdat m c).Finds 4 t Y) : Y = iblk m c 4 t := by
  obtain ⟨d, rfl⟩ := RDat.finds_in_eq_fetched (rdat m c) 4 rfl (fun _ _ _ => rfl) (fun _ _ _ h => h) t Y h
  unfold RDat.fetched RDat.blockOf iblk; rfl

/-! ## The body at a point -/

/-- What the body is called with at point t, the windows' buffers at contents Y w, -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (mf t) fullShare (Y 0)
    ∗ owns (c : Thread nD τ) (mw1 t) fullShare (Y 1)
    ∗ owns (c : Thread nD τ) (mw2 t) fullShare (Y 2)
    ∗ owns (c : Thread nD τ) (mb1 t) fullShare (Y 3)
    ∗ owns (c : Thread nD τ) (mb2 t) fullShare (Y 4)
    ∗ owns (c : Thread nD τ) (mo t) fullShare (Y 5))

/-- and what it returns. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (mf t) fullShare X)
    ∗ (∃ X, ⌜(rdat m c).after 1 t (Y 1) X⌝ ∗ owns (c : Thread nD τ) (mw1 t) fullShare X)
    ∗ (∃ X, ⌜(rdat m c).after 2 t (Y 2) X⌝ ∗ owns (c : Thread nD τ) (mw2 t) fullShare X)
    ∗ (∃ X, ⌜(rdat m c).after 3 t (Y 3) X⌝ ∗ owns (c : Thread nD τ) (mb1 t) fullShare X)
    ∗ (∃ X, ⌜(rdat m c).after 4 t (Y 4) X⌝ ∗ owns (c : Thread nD τ) (mb2 t) fullShare X)
    ∗ (∃ X, ⌜(rdat m c).after 5 t (Y 5) X⌝ ∗ owns (c : Thread nD τ) (mo t) fullShare X))

/-- Each case's stores into an accumulator cover it (the last store is whole). -/
theorem coverFirst1 (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096 .f32) (harg5 : arg5.IsWhole) (arg6 : Memref sig .tc .vmem S4096 .f32) (harg6 : arg6.IsWhole) (arg7 : Memref sig .tc .vmem S512x4096 .f32) (harg7 : arg7.IsWhole) (arg8 : Memref sig .tc .vmem S512x4096 .f32) (harg8 : arg8.IsWhole) (arg9 : Memref sig .tc .vmem S512x4096 .f32) (harg9 : arg9.IsWhole) (hc0 : isFirst i) (hc1 : ¬isLast i)
    (x0 : Vec F S512x512 .f32) (x1 : Vec F S512x4096 .bf16) (x2 : Vec F S512x4096 .bf16) (x3 : Vec F S4096 .f32) (x4 : Vec F S4096 .f32) (y : S512x4096.Idx) :
    ∃ pc ∈ (runFirst (F := F) c i arg2 harg2 arg3 harg3 arg4 harg4 arg5 harg5 arg6 harg6 arg7 harg7 arg8 harg8 arg9 harg9 hc0 hc1 x0 x1 x2 x3 x4).1, y ∈ pc.1.set :=
  View.cover_of_tiledL _ S512x4096.size (by sl_kernel_rfl) y
theorem coverFirst2 (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096 .f32) (harg5 : arg5.IsWhole) (arg6 : Memref sig .tc .vmem S4096 .f32) (harg6 : arg6.IsWhole) (arg7 : Memref sig .tc .vmem S512x4096 .f32) (harg7 : arg7.IsWhole) (arg8 : Memref sig .tc .vmem S512x4096 .f32) (harg8 : arg8.IsWhole) (arg9 : Memref sig .tc .vmem S512x4096 .f32) (harg9 : arg9.IsWhole) (hc0 : isFirst i) (hc1 : ¬isLast i)
    (x0 : Vec F S512x512 .f32) (x1 : Vec F S512x4096 .bf16) (x2 : Vec F S512x4096 .bf16) (x3 : Vec F S4096 .f32) (x4 : Vec F S4096 .f32) (y : S512x4096.Idx) :
    ∃ pc ∈ (runFirst (F := F) c i arg2 harg2 arg3 harg3 arg4 harg4 arg5 harg5 arg6 harg6 arg7 harg7 arg8 harg8 arg9 harg9 hc0 hc1 x0 x1 x2 x3 x4).2.1, y ∈ pc.1.set :=
  View.cover_of_tiledL _ S512x4096.size (by sl_kernel_rfl) y
theorem coverMid1 (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096 .f32) (harg5 : arg5.IsWhole) (arg6 : Memref sig .tc .vmem S4096 .f32) (harg6 : arg6.IsWhole) (arg7 : Memref sig .tc .vmem S512x4096 .f32) (harg7 : arg7.IsWhole) (arg8 : Memref sig .tc .vmem S512x4096 .f32) (harg8 : arg8.IsWhole) (arg9 : Memref sig .tc .vmem S512x4096 .f32) (harg9 : arg9.IsWhole) (hc0 : ¬isFirst i) (hc1 : ¬isLast i)
    (x0 : Vec F S512x512 .f32) (x1 : Vec F S512x4096 .bf16) (x2 : Vec F S512x4096 .bf16) (x3 : Vec F S4096 .f32) (x4 : Vec F S4096 .f32) (xa xb : Vec F S512x4096 .f32) (y : S512x4096.Idx) :
    ∃ pc ∈ (runMid (F := F) c i arg2 harg2 arg3 harg3 arg4 harg4 arg5 harg5 arg6 harg6 arg7 harg7 arg8 harg8 arg9 harg9 hc0 hc1 x0 x1 x2 x3 x4 xa xb).1, y ∈ pc.1.set :=
  View.cover_of_tiledL _ S512x4096.size (by sl_kernel_rfl) y
theorem coverMid2 (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096 .f32) (harg5 : arg5.IsWhole) (arg6 : Memref sig .tc .vmem S4096 .f32) (harg6 : arg6.IsWhole) (arg7 : Memref sig .tc .vmem S512x4096 .f32) (harg7 : arg7.IsWhole) (arg8 : Memref sig .tc .vmem S512x4096 .f32) (harg8 : arg8.IsWhole) (arg9 : Memref sig .tc .vmem S512x4096 .f32) (harg9 : arg9.IsWhole) (hc0 : ¬isFirst i) (hc1 : ¬isLast i)
    (x0 : Vec F S512x512 .f32) (x1 : Vec F S512x4096 .bf16) (x2 : Vec F S512x4096 .bf16) (x3 : Vec F S4096 .f32) (x4 : Vec F S4096 .f32) (xa xb : Vec F S512x4096 .f32) (y : S512x4096.Idx) :
    ∃ pc ∈ (runMid (F := F) c i arg2 harg2 arg3 harg3 arg4 harg4 arg5 harg5 arg6 harg6 arg7 harg7 arg8 harg8 arg9 harg9 hc0 hc1 x0 x1 x2 x3 x4 xa xb).2.1, y ∈ pc.1.set :=
  View.cover_of_tiledL _ S512x4096.size (by sl_kernel_rfl) y
theorem coverLast1 (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096 .f32) (harg5 : arg5.IsWhole) (arg6 : Memref sig .tc .vmem S4096 .f32) (harg6 : arg6.IsWhole) (arg7 : Memref sig .tc .vmem S512x4096 .f32) (harg7 : arg7.IsWhole) (arg8 : Memref sig .tc .vmem S512x4096 .f32) (harg8 : arg8.IsWhole) (arg9 : Memref sig .tc .vmem S512x4096 .f32) (harg9 : arg9.IsWhole) (hc0 : ¬isFirst i) (hc1 : isLast i)
    (x0 : Vec F S512x512 .f32) (x1 : Vec F S512x4096 .bf16) (x2 : Vec F S512x4096 .bf16) (x3 : Vec F S4096 .f32) (x4 : Vec F S4096 .f32) (xa xb : Vec F S512x4096 .f32) (y : S512x4096.Idx) :
    ∃ pc ∈ (runLast (F := F) c i arg2 harg2 arg3 harg3 arg4 harg4 arg5 harg5 arg6 harg6 arg7 harg7 arg8 harg8 arg9 harg9 hc0 hc1 x0 x1 x2 x3 x4 xa xb).1, y ∈ pc.1.set :=
  View.cover_of_tiledL _ S512x4096.size (by sl_kernel_rfl) y
theorem coverLast2 (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096 .f32) (harg5 : arg5.IsWhole) (arg6 : Memref sig .tc .vmem S4096 .f32) (harg6 : arg6.IsWhole) (arg7 : Memref sig .tc .vmem S512x4096 .f32) (harg7 : arg7.IsWhole) (arg8 : Memref sig .tc .vmem S512x4096 .f32) (harg8 : arg8.IsWhole) (arg9 : Memref sig .tc .vmem S512x4096 .f32) (harg9 : arg9.IsWhole) (hc0 : ¬isFirst i) (hc1 : isLast i)
    (x0 : Vec F S512x512 .f32) (x1 : Vec F S512x4096 .bf16) (x2 : Vec F S512x4096 .bf16) (x3 : Vec F S4096 .f32) (x4 : Vec F S4096 .f32) (xa xb : Vec F S512x4096 .f32) (y : S512x4096.Idx) :
    ∃ pc ∈ (runLast (F := F) c i arg2 harg2 arg3 harg3 arg4 harg4 arg5 harg5 arg6 harg6 arg7 harg7 arg8 harg8 arg9 harg9 hc0 hc1 x0 x1 x2 x3 x4 xa xb).2.1, y ∈ pc.1.set :=
  View.cover_of_tiledL _ S512x4096.size (by sl_kernel_rfl) y

set_option maxHeartbeats 4000000 in
/-- The body at any point: every input's buffer holds its block; the point's residue modulo 8 selects the case;
    the accumulators are handed over at what the point before left (at anything at the very first point) and taken
    back at this point's contents; the output's buffer is taken back at `outAt t (Y 5)`. -/
theorem sound_body (c : Dev nD) (t : Fin cfg0.N) (Y : (w : Fin cfg0.W) → (cfg0.win w).block.Idx → Elt F (cfg0.win w).elt)
    (hY : ∀ w, (rdat m c).Finds w t (Y w)) :
    bodyPre m c t Y ⊢ wp frame (wpE (defs₀ (F := F)) Variants.none c none) Set.univ (bodyAt0 t) (fun _ => bodyPost m c t Y) := by
  unfold bodyPre bodyPost bodyAt0
  rw [finds0 m c t _ (hY 0), finds1 m c t _ (hY 1), finds2 m c t _ (hY 2), finds3 m c t _ (hY 3), finds4 m c t _ (hY 4)]
  rw [show (rdat m c).owesAt () t.succ = (rdat m c).owesAt () t.castSucc from rfl]
  rw [show (rdat m c).Φ t.succ = inv m c (t.val + 1) t.isLt from rfl, inv_succ]
  have hN : t.val < 128 := lt_of_lt_of_eq t.isLt (show cfg0.N = 128 from N_0)
  by_cases h0 : t.val % 8 = 0
  · have h1 : ¬t.val % 8 = 7 := by omega
    rw [accAt_first m c t h0 h1]; dsimp only
    by_cases hz : t.val = 0
    · rw [inv_castSucc m c t, inv_zero m c _ _ hz, restInv_eq]
      iintro ⟨⟨⟨HS0, HS1⟩, Hg⟩, Ho, H0, H1, H2, H3, H4, H5⟩
      iapply (((firstAt m c t h0 h1).2.2 (Y 5)).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirst1 _ _ _ _ _ _ _ _ _ _ _ _ _ _ _ _ _ _ _ _ _ _ _ _ _)
          unfold owns; iexists _; isplitr
          swap; · iexact HS1
          ipureintro; exact View.read_writes_of_cover _ _ _ _ _ (coverFirst2 _ _ _ _ _ _ _ _ _ _ _ _ _ _ _ _ _ _ _ _ _ _ _ _ _)
        iexact Hg
      isplitl [Ho]; · iexact Ho
      isplitl [H0]
      · iexists _; isplitr; · ipureintro; rfl
        iexact H0
      isplitl [H1]
      · iexists _; isplitr; · ipureintro; rfl
        iexact H1
      isplitl [H2]
      · iexists _; isplitr; · ipureintro; rfl
        iexact H2
      isplitl [H3]
      · iexists _; isplitr; · ipureintro; rfl
        iexact H3
      isplitl [H4]
      · iexists _; isplitr; · ipureintro; rfl
        iexact H4
      iexists (outAt m c t (Y 5)); isplitr
      · ipureintro; rfl
      unfold owns; iexists _; isplitr
      swap; · iexact H5
      ipureintro; unfold outAt; rw [dif_pos h0]; rfl
    · rw [inv_castSucc m c t, inv_pos m c _ _ hz]
      iintro ⟨⟨⟨HS0, HS1⟩, Hg⟩, Ho, H0, H1, H2, H3, H4, H5⟩
      iapply (((firstAt m c t h0 h1).2.2 (Y 5)).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirst1 _ _ _ _ _ _ _ _ _ _ _ _ _ _ _ _ _ _ _ _ _ _ _ _ _)
          unfold owns; iexists _; isplitr
          swap; · iexact HS1
          ipureintro; exact View.read_writes_of_cover _ _ _ _ _ (coverFirst2 _ _ _ _ _ _ _ _ _ _ _ _ _ _ _ _ _ _ _ _ _ _ _ _ _)
        iexact Hg
      isplitl [Ho]; · iexact Ho
      isplitl [H0]
      · iexists _; isplitr; · ipureintro; rfl
        iexact H0
      isplitl [H1]
      · iexists _; isplitr; · ipureintro; rfl
        iexact H1
      isplitl [H2]
      · iexists _; isplitr; · ipureintro; rfl
        iexact H2
      isplitl [H3]
      · iexists _; isplitr; · ipureintro; rfl
        iexact H3
      isplitl [H4]
      · iexists _; isplitr; · ipureintro; rfl
        iexact H4
      iexists (outAt m c t (Y 5)); isplitr
      · ipureintro; rfl
      unfold owns; iexists _; isplitr
      swap; · iexact H5
      ipureintro; unfold outAt; rw [dif_pos h0]; rfl
  · have hz : t.val ≠ 0 := fun e => h0 (by rw [e])
    by_cases h1 : t.val % 8 = 7
    · rw [accAt_last m c t h0 h1]; dsimp only
      rw [inv_castSucc m c t, inv_pos m c _ _ hz]
      iintro ⟨⟨⟨HS0, HS1⟩, Hg⟩, Ho, H0, H1, H2, H3, H4, H5⟩
      iapply (((lastAt m c t h0 h1 (accBefore m c t).1 (accBefore m c t).2).2.2 (Y 5)).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverLast1 _ _ _ _ _ _ _ _ _ _ _ _ _ _ _ _ _ _ _ _ _ _ _ _ _ _ _)
          unfold owns; iexists _; isplitr
          swap; · iexact HS1
          ipureintro; exact View.read_writes_of_cover _ _ _ _ _ (coverLast2 _ _ _ _ _ _ _ _ _ _ _ _ _ _ _ _ _ _ _ _ _ _ _ _ _ _ _)
        iexact Hg
      isplitl [Ho]; · iexact Ho
      isplitl [H0]
      · iexists _; isplitr; · ipureintro; rfl
        iexact H0
      isplitl [H1]
      · iexists _; isplitr; · ipureintro; rfl
        iexact H1
      isplitl [H2]
      · iexists _; isplitr; · ipureintro; rfl
        iexact H2
      isplitl [H3]
      · iexists _; isplitr; · ipureintro; rfl
        iexact H3
      isplitl [H4]
      · iexists _; isplitr; · ipureintro; rfl
        iexact H4
      iexists (outAt m c t (Y 5)); isplitr
      · ipureintro; rfl
      unfold owns; iexists _; isplitr
      swap; · iexact H5
      ipureintro; unfold outAt; rw [dif_neg h0, dif_pos h1]; rfl
    · rw [accAt_mid m c t h0 h1]; dsimp only
      rw [inv_castSucc m c t, inv_pos m c _ _ hz]
      iintro ⟨⟨⟨HS0, HS1⟩, Hg⟩, Ho, H0, H1, H2, H3, H4, H5⟩
      iapply (((midAt m c t h0 h1 (accBefore m c t).1 (accBefore m c t).2).2.2 (Y 5)).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverMid1 _ _ _ _ _ _ _ _ _ _ _ _ _ _ _ _ _ _ _ _ _ _ _ _ _ _ _)
          unfold owns; iexists _; isplitr
          swap; · iexact HS1
          ipureintro; exact View.read_writes_of_cover _ _ _ _ _ (coverMid2 _ _ _ _ _ _ _ _ _ _ _ _ _ _ _ _ _ _ _ _ _ _ _ _ _ _ _)
        iexact Hg
      isplitl [Ho]; · iexact Ho
      isplitl [H0]
      · iexists _; isplitr; · ipureintro; rfl
        iexact H0
      isplitl [H1]
      · iexists _; isplitr; · ipureintro; rfl
        iexact H1
      isplitl [H2]
      · iexists _; isplitr; · ipureintro; rfl
        iexact H2
      isplitl [H3]
      · iexists _; isplitr; · ipureintro; rfl
        iexact H3
      isplitl [H4]
      · iexists _; isplitr; · ipureintro; rfl
        iexact H4
      iexists (outAt m c t (Y 5)); isplitr
      · ipureintro; rfl
      unfold owns; iexists _; isplitr
      swap; · iexact H5
      ipureintro; unfold outAt; rw [dif_neg h0, dif_neg h1]; rfl

/-- The library's relational body obligation, at every point. -/
theorem body_obligation (c : Dev nD) : (rdat (F := F) m c).BodyObligation (defs₀ (F := F)) Variants.none () Set.univ := fun t Y hY => by
  rw [bigSep_W0, bigSep_W0]
  exact sound_body m c t Y hY

/-- What the region hands over is the invariant before the first point. -/
theorem inv_in (c : Dev nD) : Pipeline.ΦA spec0 c ⊢ (rdat m c).Φ 0 := by
  rw [show (rdat m c).Φ 0 = inv m c 0 (Nat.zero_le _) from rfl, inv_zero m c 0 _ rfl]

/-- After the last point the invariant gives it back, the accumulators' contents forgotten. -/
theorem inv_out (c : Dev nD) : (rdat m c).Φ (Fin.last cfg0.N) ⊢ Pipeline.ΦA spec0 c := by
  rw [show (rdat m c).Φ (Fin.last cfg0.N) = inv m c (Fin.last cfg0.N).val (Nat.le_of_lt_succ (Fin.last cfg0.N).isLt) from rfl,
    inv_pos m c _ _ (by rw [Fin.val_last]; have : cfg0.N = 128 := N_0; omega), restInv_eq]
  iintro ⟨⟨HS0, HS1⟩, Hg⟩
  isplitl [HS0 HS1]
  · isplitl [HS0]
    · iexists _; iexact HS0
    iexists _; iexact HS1
  iexact Hg

/-! ## The run -/

set_option backward.isDefEq.respectTransparency.types false in
/-- Every weakly fair execution of @main terminates without a fault; afterwards every array a window stages holds
    contents the proof data allow after all write-backs, and every other unscoped buffer its region-entry contents. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := rdat_A m) (hin := inv_in m) (hout := inv_out m)

/-- The argument arrays end as launched: the staged ones are inputs, never written back; the two weight matrices
    are staged by no window (the region reads their transposes) and no host operation writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(Eq.mp (congrFun ((rdat m c).ArrAt_in 0 rfl _) _) ((h c).1 0)).trans ((rdat_A m c 0).trans (V_main_arg0 m c)),
      ((h c).2 main_arg1 (Pipeline.mem_restRefs_of main_arg1 (by decide) (by decide))).trans (V_main_arg1 m c),
      (Eq.mp (congrFun ((rdat m c).ArrAt_in 3 rfl _) _) ((h c).1 3)).trans ((rdat_A m c 3).trans (V_main_arg2 m c)),
      ((h c).2 main_arg3 (Pipeline.mem_restRefs_of main_arg3 (by decide) (by decide))).trans (V_main_arg3 m c),
      (Eq.mp (congrFun ((rdat m c).ArrAt_in 4 rfl _) _) ((h c).1 4)).trans ((rdat_A m c 4).trans (V_main_arg4 m c))⟩) (run_main m ρ)

end Cert.Kernel.Hand

end
-- ==== Proof.BodyDefs.lean ====
/-
  The row-tile kernel's body, shared definitions.  The grid is 16 row tiles by 8 column chunks, walked row tile
  by row tile; point t = 8·i + j works on row tile i and chunk j of the contracted axis.  The body resets its
  two accumulators exactly at j = 0 and finishes the row tile (bias, both softmaxes, residual) exactly at j = 7:
  both conditions are decided here over the whole grid, as congruences of the point modulo 8.
-/
import proofs.«140654_j38603166056700_2_alg».proof.Proof.Gen.KernelIdeal.Frame
import proofs.«140654_j38603166056700_2_alg».proof.Proof.Gen.KernelIdeal.Skeleton
import proofs.«140654_j38603166056700_2_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

/-- The reset branch is taken: the chunk coordinate is 0. -/
abbrev isFirst (i : grid0.Coords) : Prop :=
  (Scalar.cmpi .ne (Scalar.extui (Scalar.cmpi .eq (BitVec.ofNat 32 (i 1).val) 0#32)) 0#32) = 1#1

theorem isFirst_iff : ∀ t : Fin cfg0.N, isFirst (grid0.coords t) ↔ t.val % 8 = 0 :=
  (by decide +kernel : ∀ t : Fin grid0.N, isFirst (grid0.coords t) ↔ t.val % 8 = 0)

/-- The finishing branch is taken: the chunk coordinate is 7. -/
abbrev isLast (i : grid0.Coords) : Prop :=
  (Scalar.cmpi .ne (Scalar.extui (Scalar.cmpi .eq (BitVec.ofNat 32 (i 1).val) 7#32)) 0#32) = 1#1

theorem isLast_iff : ∀ t : Fin cfg0.N, isLast (grid0.coords t) ↔ t.val % 8 = 7 :=
  (by decide +kernel : ∀ t : Fin grid0.N, isLast (grid0.coords t) ↔ t.val % 8 = 7)

/-- The staging memref each window hands the body at point t, and that it is a whole buffer. -/
abbrev mf (t : Fin cfg0.N) : Memref sig .tc .vmem S512x512 .f32 := win0_0.stage (cfg0.slots t 0)
abbrev hmf (t : Fin cfg0.N) : (mf t).IsWhole := hstage0_0 ((cfg0.slots t 0).cast nbuf0_0)
abbrev mw1 (t : Fin cfg0.N) : Memref sig .tc .vmem S512x4096 .bf16 := win0_1.stage (cfg0.slots t 1)
abbrev hmw1 (t : Fin cfg0.N) : (mw1 t).IsWhole := hstage0_1 ((cfg0.slots t 1).cast nbuf0_1)
abbrev mw2 (t : Fin cfg0.N) : Memref sig .tc .vmem S512x4096 .bf16 := win0_2.stage (cfg0.slots t 2)
abbrev hmw2 (t : Fin cfg0.N) : (mw2 t).IsWhole := hstage0_2 ((cfg0.slots t 2).cast nbuf0_2)
abbrev mb1 (t : Fin cfg0.N) : Memref sig .tc .vmem S4096 .f32 := win0_3.stage (cfg0.slots t 3)
abbrev hmb1 (t : Fin cfg0.N) : (mb1 t).IsWhole := hstage0_3 ((cfg0.slots t 3).cast nbuf0_3)
abbrev mb2 (t : Fin cfg0.N) : Memref sig .tc .vmem S4096 .f32 := win0_4.stage (cfg0.slots t 4)
abbrev hmb2 (t : Fin cfg0.N) : (mb2 t).IsWhole := hstage0_4 ((cfg0.slots t 4).cast nbuf0_4)
abbrev mo (t : Fin cfg0.N) : Memref sig .tc .vmem S512x4096 .f32 := win0_5.stage (cfg0.slots t 5)
abbrev hmo (t : Fin cfg0.N) : (mo t).IsWhole := hstage0_5 ((cfg0.slots t 5).cast nbuf0_5)

/-- The two accumulators: scratch buffers of the kernel's own, whole. -/
abbrev acc1M : Memref sig .tc .vmem S512x4096 .f32 := Memref.whole cc0_scratch0
abbrev acc2M : Memref sig .tc .vmem S512x4096 .f32 := Memref.whole cc0_scratch1

/-- What the region hands the body besides the windows: both accumulators at some contents, and the generator register. -/
theorem restInv_eq (c : Dev nD) :
    (Pipeline.ΦA spec0 c : sProp 𝕄)
      = iprop(iprop((∃ d, owns (c : Thread nD τ) acc1M fullShare d) ∗ (∃ d, owns (c : Thread nD τ) acc2M fullShare d)) ∗ (∃ r, prngReg c r)) := by
  unfold Pipeline.ΦA; rw [scopedRest0_eq]; simp only [acc1M, acc2M, owns_whole]; try rfl

end Cert.KernelIdeal.Hand

end
-- ==== Proof.RunFirst.lean ====
/-
  The body at a first-chunk point (j = 0): both accumulators are zeroed and then take this chunk's two products;
  the output buffer, whatever it held, has column chunk 0 overwritten by the chunk of f.  The lists of stores each
  buffer ends with are found by running the body symbolically.
-/
import proofs.«140654_j38603166056700_2_alg».proof.Proof.BodyDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 1000000 in
/-- The run at j = 0: the stores left in the two accumulators (over anything) and, for any prior contents yo of the output buffer, the stores left in it over yo. -/
noncomputable def runFirst (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096 .f32) (harg5 : arg5.IsWhole) (arg6 : Memref sig .tc .vmem S4096 .f32) (harg6 : arg6.IsWhole) (arg7 : Memref sig .tc .vmem S512x4096 .f32) (harg7 : arg7.IsWhole) (arg8 : Memref sig .tc .vmem S512x4096 .f32) (harg8 : arg8.IsWhole) (arg9 : Memref sig .tc .vmem S512x4096 .f32) (harg9 : arg9.IsWhole) (hc0 : isFirst i) (hc1 : ¬isLast i)
    (x0 : Vec F S512x512 .f32) (x1 : Vec F S512x4096 .bf16) (x2 : Vec F S512x4096 .bf16) (x3 : Vec F S4096 .f32) (x4 : Vec F S4096 .f32) :
    Σ' (LA : List (View.Piece (Elt F) S512x4096 .f32)) (LB : List (View.Piece (Elt F) S512x4096 .f32)), (yo : Vec F S512x4096 .f32) → { LO : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare yo ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread yo) LO) ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LB)) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9) K } := by
  refine ⟨?_, ?_, fun yo => ⟨?_, fun E K => ?run⟩⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexact H5
    isplitl [HS0]; · iexists _; iexact HS0
    iexists _; iexact HS1

end Cert.KernelIdeal.Hand

end
-- ==== Proof.RunMid.lean ====
/-
  The body at a middle point (0 < j < 7): each accumulator, holding the partial products of the chunks before,
  takes this chunk's product; the output buffer has column chunk j overwritten by the chunk of f.
-/
import proofs.«140654_j38603166056700_2_alg».proof.Proof.RunFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 1000000 in
/-- The run at 0 < j < 7, the accumulators found at xa and xb. -/
noncomputable def runMid (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096 .f32) (harg5 : arg5.IsWhole) (arg6 : Memref sig .tc .vmem S4096 .f32) (harg6 : arg6.IsWhole) (arg7 : Memref sig .tc .vmem S512x4096 .f32) (harg7 : arg7.IsWhole) (arg8 : Memref sig .tc .vmem S512x4096 .f32) (harg8 : arg8.IsWhole) (arg9 : Memref sig .tc .vmem S512x4096 .f32) (harg9 : arg9.IsWhole) (hc0 : ¬isFirst i) (hc1 : ¬isLast i)
    (x0 : Vec F S512x512 .f32) (x1 : Vec F S512x4096 .bf16) (x2 : Vec F S512x4096 .bf16) (x3 : Vec F S4096 .f32) (x4 : Vec F S4096 .f32) (xa xb : Vec F S512x4096 .f32) :
    Σ' (LA : List (View.Piece (Elt F) S512x4096 .f32)) (LB : List (View.Piece (Elt F) S512x4096 .f32)), (yo : Vec F S512x4096 .f32) → { LO : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare yo ∗ owns (c : Thread nD τ) arg8 fullShare xa ∗ owns (c : Thread nD τ) arg9 fullShare xb
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread yo) LO) ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LB)) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9) K } := by
  refine ⟨?_, ?_, fun yo => ⟨?_, fun E K => ?run⟩⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexact H5
    isplitl [HS0]; · iexists _; iexact HS0
    iexists _; iexact HS1

end Cert.KernelIdeal.Hand

end
-- ==== Proof.RunLast.lean ====
/-
  The body at a last-chunk point (j = 7): the accumulators take the last product, then the bias is added, both
  row softmaxes are formed, and the whole output block is stored: its own contents (by now the row tile of f,
  the last chunk just written) plus the two softmaxes.
-/
import proofs.«140654_j38603166056700_2_alg».proof.Proof.RunMid

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 1000000 in
/-- The run at j = 7, the accumulators found at xa and xb. -/
noncomputable def runLast (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096 .f32) (harg5 : arg5.IsWhole) (arg6 : Memref sig .tc .vmem S4096 .f32) (harg6 : arg6.IsWhole) (arg7 : Memref sig .tc .vmem S512x4096 .f32) (harg7 : arg7.IsWhole) (arg8 : Memref sig .tc .vmem S512x4096 .f32) (harg8 : arg8.IsWhole) (arg9 : Memref sig .tc .vmem S512x4096 .f32) (harg9 : arg9.IsWhole) (hc0 : ¬isFirst i) (hc1 : isLast i)
    (x0 : Vec F S512x512 .f32) (x1 : Vec F S512x4096 .bf16) (x2 : Vec F S512x4096 .bf16) (x3 : Vec F S4096 .f32) (x4 : Vec F S4096 .f32) (xa xb : Vec F S512x4096 .f32) :
    Σ' (LA : List (View.Piece (Elt F) S512x4096 .f32)) (LB : List (View.Piece (Elt F) S512x4096 .f32)), (yo : Vec F S512x4096 .f32) → { LO : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare yo ∗ owns (c : Thread nD τ) arg8 fullShare xa ∗ owns (c : Thread nD τ) arg9 fullShare xb
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread yo) LO) ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LB)) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9) K } := by
  refine ⟨?_, ?_, fun yo => ⟨?_, fun E K => ?run⟩⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexact H5
    isplitl [HS0]; · iexists _; iexact HS0
    iexists _; iexact HS1

end Cert.KernelIdeal.Hand

end
-- ==== Proof.BodyData.lean ====
/-
  The proof data of the row-tile pipeline, and the body at every point.

  Between points the kernel carries three things.  The two accumulators are scratch buffers nobody else touches:
  what they hold after point t is a function of the blocks alone, by recursion on t (reset at j = 0, one more
  product at every j).  The output block's staging buffer is the third: it stays in place over the eight chunks of
  a row tile and is written back only after j = 7; at j = 0 it holds whatever the pipeline left there, and each
  point overwrites ONE column chunk of it.  So what the body leaves in it is stated as a function of what it found
  there (`outAt t Y`), not as a closed form — the proof data are relational.
-/
import proofs.«140654_j38603166056700_2_alg».proof.Proof.RunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases at a point of the grid -/

/-- The first-chunk run at point t (t ≡ 0 mod 8), on the point's staging buffers and blocks. -/
def firstAt (c : Dev nD) (t : Fin cfg0.N) (h0 : t.val % 8 = 0) (h1 : ¬t.val % 8 = 7) :=
  runFirst (F := F) c (grid0.coords t) (mf t) (hmf t) (mw1 t) (hmw1 t) (mw2 t) (hmw2 t) (mb1 t) (hmb1 t) (mb2 t) (hmb2 t) (mo t) (hmo t) acc1M (Memref.isWhole_whole _) acc2M (Memref.isWhole_whole _) ((isFirst_iff t).mpr h0) (fun h => h1 ((isLast_iff t).mp h)) (iblk m c 0 t) (iblk m c 1 t) (iblk m c 2 t) (iblk m c 3 t) (iblk m c 4 t)

/-- The middle run at point t (t mod 8 in 1..6), the accumulators found at xa, xb. -/
def midAt (c : Dev nD) (t : Fin cfg0.N) (h0 : ¬t.val % 8 = 0) (h1 : ¬t.val % 8 = 7) (xa xb : Vec F S512x4096 .f32) :=
  runMid (F := F) c (grid0.coords t) (mf t) (hmf t) (mw1 t) (hmw1 t) (mw2 t) (hmw2 t) (mb1 t) (hmb1 t) (mb2 t) (hmb2 t) (mo t) (hmo t) acc1M (Memref.isWhole_whole _) acc2M (Memref.isWhole_whole _) (fun h => h0 ((isFirst_iff t).mp h)) (fun h => h1 ((isLast_iff t).mp h)) (iblk m c 0 t) (iblk m c 1 t) (iblk m c 2 t) (iblk m c 3 t) (iblk m c 4 t) xa xb

/-- The last-chunk run at point t (t ≡ 7 mod 8), the accumulators found at xa, xb. -/
def lastAt (c : Dev nD) (t : Fin cfg0.N) (h0 : ¬t.val % 8 = 0) (h1 : t.val % 8 = 7) (xa xb : Vec F S512x4096 .f32) :=
  runLast (F := F) c (grid0.coords t) (mf t) (hmf t) (mw1 t) (hmw1 t) (mw2 t) (hmw2 t) (mb1 t) (hmb1 t) (mb2 t) (hmb2 t) (mo t) (hmo t) acc1M (Memref.isWhole_whole _) acc2M (Memref.isWhole_whole _) (fun h => h0 ((isFirst_iff t).mp h)) ((isLast_iff t).mpr h1) (iblk m c 0 t) (iblk m c 1 t) (iblk m c 2 t) (iblk m c 3 t) (iblk m c 4 t) xa xb

/-- A list of stores into an accumulator, read back (over anything: each case's stores cover it). -/
def readAcc1 (L : List (View.Piece (Elt F) S512x4096 .f32)) : Vec F S512x4096 .f32 := acc1M.view.read (Elt F) (acc1M.view.writes (Elt F) acc1M.view.junk L)
def readAcc2 (L : List (View.Piece (Elt F) S512x4096 .f32)) : Vec F S512x4096 .f32 := acc2M.view.read (Elt F) (acc2M.view.writes (Elt F) acc2M.view.junk L)

/-- A list of stores into the output's staging buffer at point t, read back over the contents Y found there. -/
def readOut (t : Fin cfg0.N) (Y : Vec F S512x4096 .f32) (L : List (View.Piece (Elt F) S512x4096 .f32)) : Vec F S512x4096 .f32 :=
  (mo t).view.read (Elt F) ((mo t).view.writes (Elt F) ((hmo t).unread Y) L)

/-! ## The accumulators, point by point -/

/-- What the two accumulators hold after the body at position n. -/
def accAt (c : Dev nD) : (n : ℕ) → n < cfg0.N → Vec F S512x4096 .f32 × Vec F S512x4096 .f32
  | 0, hn => (readAcc1 (firstAt m c ⟨0, hn⟩ (Nat.zero_mod _) (fun h => by have h' : 0 % 8 = 7 := h; omega)).1, readAcc2 (firstAt m c ⟨0, hn⟩ (Nat.zero_mod _) (fun h => by have h' : 0 % 8 = 7 := h; omega)).2.1)
  | n + 1, hn =>
    if h0 : (n + 1) % 8 = 0 then
      (readAcc1 (firstAt m c ⟨n + 1, hn⟩ h0 (fun h => by have h' : (n + 1) % 8 = 7 := h; omega)).1, readAcc2 (firstAt m c ⟨n + 1, hn⟩ h0 (fun h => by have h' : (n + 1) % 8 = 7 := h; omega)).2.1)
    else if h1 : (n + 1) % 8 = 7 then
      (readAcc1 (lastAt m c ⟨n + 1, hn⟩ h0 h1 (accAt c n (Nat.lt_of_succ_lt hn)).1 (accAt c n (Nat.lt_of_succ_lt hn)).2).1,
       readAcc2 (lastAt m c ⟨n + 1, hn⟩ h0 h1 (accAt c n (Nat.lt_of_succ_lt hn)).1 (accAt c n (Nat.lt_of_succ_lt hn)).2).2.1)
    else
      (readAcc1 (midAt m c ⟨n + 1, hn⟩ h0 h1 (accAt c n (Nat.lt_of_succ_lt hn)).1 (accAt c n (Nat.lt_of_succ_lt hn)).2).1,
       readAcc2 (midAt m c ⟨n + 1, hn⟩ h0 h1 (accAt c n (Nat.lt_of_succ_lt hn)).1 (accAt c n (Nat.lt_of_succ_lt hn)).2).2.1)

/-- The accumulators before point t (t not the first): what the point before left. -/
abbrev accBefore (c : Dev nD) (t : Fin cfg0.N) : Vec F S512x4096 .f32 × Vec F S512x4096 .f32 :=
  accAt m c (t.val - 1) (Nat.lt_of_le_of_lt (Nat.sub_le _ _) t.isLt)

theorem accAt_first (c : Dev nD) (t : Fin cfg0.N) (h0 : t.val % 8 = 0) (h1 : ¬t.val % 8 = 7) :
    accAt m c t.val t.isLt = (readAcc1 (firstAt m c t h0 h1).1, readAcc2 (firstAt m c t h0 h1).2.1) := by
  obtain ⟨n, hn⟩ := t
  cases n with
  | zero => exact rfl
  | succ n => exact (dif_pos h0).trans rfl

theorem accAt_mid (c : Dev nD) (t : Fin cfg0.N) (h0 : ¬t.val % 8 = 0) (h1 : ¬t.val % 8 = 7) :
    accAt m c t.val t.isLt = (readAcc1 (midAt m c t h0 h1 (accBefore m c t).1 (accBefore m c t).2).1,
      readAcc2 (midAt m c t h0 h1 (accBefore m c t).1 (accBefore m c t).2).2.1) := by
  obtain ⟨n, hn⟩ := t
  cases n with
  | zero => exact absurd (Nat.zero_mod _) h0
  | succ n => exact (dif_neg h0).trans ((dif_neg h1).trans rfl)

theorem accAt_last (c : Dev nD) (t : Fin cfg0.N) (h0 : ¬t.val % 8 = 0) (h1 : t.val % 8 = 7) :
    accAt m c t.val t.isLt = (readAcc1 (lastAt m c t h0 h1 (accBefore m c t).1 (accBefore m c t).2).1,
      readAcc2 (lastAt m c t h0 h1 (accBefore m c t).1 (accBefore m c t).2).2.1) := by
  obtain ⟨n, hn⟩ := t
  cases n with
  | zero => exact absurd (Nat.zero_mod _) h0
  | succ n => exact (dif_neg h0).trans ((dif_pos h1).trans rfl)

/-! ## The output's staging buffer: what a point leaves, given what it found -/

/-- What the body leaves in the output's staging buffer at point t if it found Y there. -/
def outAt (c : Dev nD) (t : Fin cfg0.N) (Y : Vec F S512x4096 .f32) : Vec F S512x4096 .f32 :=
  if h0 : t.val % 8 = 0 then
    readOut t Y (((firstAt m c t h0 (by omega)).2.2 Y).1)
  else if h1 : t.val % 8 = 7 then
    readOut t Y (((lastAt m c t h0 h1 (accBefore m c t).1 (accBefore m c t).2).2.2 Y).1)
  else
    readOut t Y (((midAt m c t h0 h1 (accBefore m c t).1 (accBefore m c t).2).2.2 Y).1)

/-! ## The invariant and the proof data -/

/-- The body's invariant before position n: at the start whatever the region hands over; afterwards the two
    accumulators at what the point before left, and the generator register. -/
def inv (c : Dev nD) : (n : ℕ) → n ≤ cfg0.N → sProp 𝕄
  | 0, _ => Pipeline.ΦA spec0 c
  | n + 1, hn => iprop(iprop(owns (c : Thread nD τ) acc1M fullShare ((accAt m c n hn).1) ∗ owns (c : Thread nD τ) acc2M fullShare ((accAt m c n hn).2)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) acc1M fullShare ((accAt m c n hn).1) ∗ owns (c : Thread nD τ) acc2M fullShare ((accAt m c n hn).2)) ∗ (∃ r, prngReg c r)) := rfl

theorem inv_pos (c : Dev nD) (n : ℕ) (h : n ≤ cfg0.N) (hz : n ≠ 0) :
    inv m c n h = iprop(iprop(owns (c : Thread nD τ) acc1M fullShare ((accAt m c (n - 1) (by omega)).1) ∗ owns (c : Thread nD τ) acc2M fullShare ((accAt m c (n - 1) (by omega)).2)) ∗ (∃ r, prngReg c r)) := by
  cases n with
  | zero => exact absurd rfl hz
  | succ n => rfl

/-- The relational proof data on core c: the arrays as the region finds them; every input's buffer left as found;
    the output's buffer left at `outAt t Y` if found at Y; the invariant `inv`; nothing owed; full shares. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = outAt m c t Y
  Φ t := inv m c t.val (Nat.le_of_lt_succ t.isLt)
  q _ := fullShare
  owed _ := 0

theorem rdat_A (c : Dev nD) (w : Fin cfg0.W) : (rdat m c).A w = V m c (Pipeline.arrRef spec0 w) := by
  dsimp only [rdat]

theorem inv_castSucc (c : Dev nD) (t : Fin cfg0.N) :
    (rdat m c).Φ t.castSucc = inv m c t.val (Nat.le_of_lt t.isLt) := by
  dsimp only [rdat]; simp only [Fin.coe_castSucc]

/-! ## Each input's buffer holds its block -/

theorem finds0 (c : Dev nD) (t : Fin cfg0.N) (Y) (h : (rdat m c).Finds 0 t Y) : Y = iblk m c 0 t := by
  obtain ⟨d, rfl⟩ := RDat.finds_in_eq_fetched (rdat m c) 0 rfl (fun _ _ _ => rfl) (fun _ _ _ h => h) t Y h
  unfold RDat.fetched RDat.blockOf iblk; rfl
theorem finds1 (c : Dev nD) (t : Fin cfg0.N) (Y) (h : (rdat m c).Finds 1 t Y) : Y = iblk m c 1 t := by
  obtain ⟨d, rfl⟩ := RDat.finds_in_eq_fetched (rdat m c) 1 rfl (fun _ _ _ => rfl) (fun _ _ _ h => h) t Y h
  unfold RDat.fetched RDat.blockOf iblk; rfl
theorem finds2 (c : Dev nD) (t : Fin cfg0.N) (Y) (h : (rdat m c).Finds 2 t Y) : Y = iblk m c 2 t := by
  obtain ⟨d, rfl⟩ := RDat.finds_in_eq_fetched (rdat m c) 2 rfl (fun _ _ _ => rfl) (fun _ _ _ h => h) t Y h
  unfold RDat.fetched RDat.blockOf iblk; rfl
theorem finds3 (c : Dev nD) (t : Fin cfg0.N) (Y) (h : (rdat m c).Finds 3 t Y) : Y = iblk m c 3 t := by
  obtain ⟨d, rfl⟩ := RDat.finds_in_eq_fetched (rdat m c) 3 rfl (fun _ _ _ => rfl) (fun _ _ _ h => h) t Y h
  unfold RDat.fetched RDat.blockOf iblk; rfl
theorem finds4 (c : Dev nD) (t : Fin cfg0.N) (Y) (h : (rdat m c).Finds 4 t Y) : Y = iblk m c 4 t := by
  obtain ⟨d, rfl⟩ := RDat.finds_in_eq_fetched (rdat m c) 4 rfl (fun _ _ _ => rfl) (fun _ _ _ h => h) t Y h
  unfold RDat.fetched RDat.blockOf iblk; rfl

/-! ## The body at a point -/

/-- What the body is called with at point t, the windows' buffers at contents Y w, -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (mf t) fullShare (Y 0)
    ∗ owns (c : Thread nD τ) (mw1 t) fullShare (Y 1)
    ∗ owns (c : Thread nD τ) (mw2 t) fullShare (Y 2)
    ∗ owns (c : Thread nD τ) (mb1 t) fullShare (Y 3)
    ∗ owns (c : Thread nD τ) (mb2 t) fullShare (Y 4)
    ∗ owns (c : Thread nD τ) (mo t) fullShare (Y 5))

/-- and what it returns. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (mf t) fullShare X)
    ∗ (∃ X, ⌜(rdat m c).after 1 t (Y 1) X⌝ ∗ owns (c : Thread nD τ) (mw1 t) fullShare X)
    ∗ (∃ X, ⌜(rdat m c).after 2 t (Y 2) X⌝ ∗ owns (c : Thread nD τ) (mw2 t) fullShare X)
    ∗ (∃ X, ⌜(rdat m c).after 3 t (Y 3) X⌝ ∗ owns (c : Thread nD τ) (mb1 t) fullShare X)
    ∗ (∃ X, ⌜(rdat m c).after 4 t (Y 4) X⌝ ∗ owns (c : Thread nD τ) (mb2 t) fullShare X)
    ∗ (∃ X, ⌜(rdat m c).after 5 t (Y 5) X⌝ ∗ owns (c : Thread nD τ) (mo t) fullShare X))

/-- Each case's stores into an accumulator cover it (the last store is whole). -/
theorem coverFirst1 (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096 .f32) (harg5 : arg5.IsWhole) (arg6 : Memref sig .tc .vmem S4096 .f32) (harg6 : arg6.IsWhole) (arg7 : Memref sig .tc .vmem S512x4096 .f32) (harg7 : arg7.IsWhole) (arg8 : Memref sig .tc .vmem S512x4096 .f32) (harg8 : arg8.IsWhole) (arg9 : Memref sig .tc .vmem S512x4096 .f32) (harg9 : arg9.IsWhole) (hc0 : isFirst i) (hc1 : ¬isLast i)
    (x0 : Vec F S512x512 .f32) (x1 : Vec F S512x4096 .bf16) (x2 : Vec F S512x4096 .bf16) (x3 : Vec F S4096 .f32) (x4 : Vec F S4096 .f32) (y : S512x4096.Idx) :
    ∃ pc ∈ (runFirst (F := F) c i arg2 harg2 arg3 harg3 arg4 harg4 arg5 harg5 arg6 harg6 arg7 harg7 arg8 harg8 arg9 harg9 hc0 hc1 x0 x1 x2 x3 x4).1, y ∈ pc.1.set :=
  View.cover_of_tiledL _ S512x4096.size (by sl_kernel_rfl) y
theorem coverFirst2 (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096 .f32) (harg5 : arg5.IsWhole) (arg6 : Memref sig .tc .vmem S4096 .f32) (harg6 : arg6.IsWhole) (arg7 : Memref sig .tc .vmem S512x4096 .f32) (harg7 : arg7.IsWhole) (arg8 : Memref sig .tc .vmem S512x4096 .f32) (harg8 : arg8.IsWhole) (arg9 : Memref sig .tc .vmem S512x4096 .f32) (harg9 : arg9.IsWhole) (hc0 : isFirst i) (hc1 : ¬isLast i)
    (x0 : Vec F S512x512 .f32) (x1 : Vec F S512x4096 .bf16) (x2 : Vec F S512x4096 .bf16) (x3 : Vec F S4096 .f32) (x4 : Vec F S4096 .f32) (y : S512x4096.Idx) :
    ∃ pc ∈ (runFirst (F := F) c i arg2 harg2 arg3 harg3 arg4 harg4 arg5 harg5 arg6 harg6 arg7 harg7 arg8 harg8 arg9 harg9 hc0 hc1 x0 x1 x2 x3 x4).2.1, y ∈ pc.1.set :=
  View.cover_of_tiledL _ S512x4096.size (by sl_kernel_rfl) y
theorem coverMid1 (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096 .f32) (harg5 : arg5.IsWhole) (arg6 : Memref sig .tc .vmem S4096 .f32) (harg6 : arg6.IsWhole) (arg7 : Memref sig .tc .vmem S512x4096 .f32) (harg7 : arg7.IsWhole) (arg8 : Memref sig .tc .vmem S512x4096 .f32) (harg8 : arg8.IsWhole) (arg9 : Memref sig .tc .vmem S512x4096 .f32) (harg9 : arg9.IsWhole) (hc0 : ¬isFirst i) (hc1 : ¬isLast i)
    (x0 : Vec F S512x512 .f32) (x1 : Vec F S512x4096 .bf16) (x2 : Vec F S512x4096 .bf16) (x3 : Vec F S4096 .f32) (x4 : Vec F S4096 .f32) (xa xb : Vec F S512x4096 .f32) (y : S512x4096.Idx) :
    ∃ pc ∈ (runMid (F := F) c i arg2 harg2 arg3 harg3 arg4 harg4 arg5 harg5 arg6 harg6 arg7 harg7 arg8 harg8 arg9 harg9 hc0 hc1 x0 x1 x2 x3 x4 xa xb).1, y ∈ pc.1.set :=
  View.cover_of_tiledL _ S512x4096.size (by sl_kernel_rfl) y
theorem coverMid2 (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096 .f32) (harg5 : arg5.IsWhole) (arg6 : Memref sig .tc .vmem S4096 .f32) (harg6 : arg6.IsWhole) (arg7 : Memref sig .tc .vmem S512x4096 .f32) (harg7 : arg7.IsWhole) (arg8 : Memref sig .tc .vmem S512x4096 .f32) (harg8 : arg8.IsWhole) (arg9 : Memref sig .tc .vmem S512x4096 .f32) (harg9 : arg9.IsWhole) (hc0 : ¬isFirst i) (hc1 : ¬isLast i)
    (x0 : Vec F S512x512 .f32) (x1 : Vec F S512x4096 .bf16) (x2 : Vec F S512x4096 .bf16) (x3 : Vec F S4096 .f32) (x4 : Vec F S4096 .f32) (xa xb : Vec F S512x4096 .f32) (y : S512x4096.Idx) :
    ∃ pc ∈ (runMid (F := F) c i arg2 harg2 arg3 harg3 arg4 harg4 arg5 harg5 arg6 harg6 arg7 harg7 arg8 harg8 arg9 harg9 hc0 hc1 x0 x1 x2 x3 x4 xa xb).2.1, y ∈ pc.1.set :=
  View.cover_of_tiledL _ S512x4096.size (by sl_kernel_rfl) y
theorem coverLast1 (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096 .f32) (harg5 : arg5.IsWhole) (arg6 : Memref sig .tc .vmem S4096 .f32) (harg6 : arg6.IsWhole) (arg7 : Memref sig .tc .vmem S512x4096 .f32) (harg7 : arg7.IsWhole) (arg8 : Memref sig .tc .vmem S512x4096 .f32) (harg8 : arg8.IsWhole) (arg9 : Memref sig .tc .vmem S512x4096 .f32) (harg9 : arg9.IsWhole) (hc0 : ¬isFirst i) (hc1 : isLast i)
    (x0 : Vec F S512x512 .f32) (x1 : Vec F S512x4096 .bf16) (x2 : Vec F S512x4096 .bf16) (x3 : Vec F S4096 .f32) (x4 : Vec F S4096 .f32) (xa xb : Vec F S512x4096 .f32) (y : S512x4096.Idx) :
    ∃ pc ∈ (runLast (F := F) c i arg2 harg2 arg3 harg3 arg4 harg4 arg5 harg5 arg6 harg6 arg7 harg7 arg8 harg8 arg9 harg9 hc0 hc1 x0 x1 x2 x3 x4 xa xb).1, y ∈ pc.1.set :=
  View.cover_of_tiledL _ S512x4096.size (by sl_kernel_rfl) y
theorem coverLast2 (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096 .f32) (harg5 : arg5.IsWhole) (arg6 : Memref sig .tc .vmem S4096 .f32) (harg6 : arg6.IsWhole) (arg7 : Memref sig .tc .vmem S512x4096 .f32) (harg7 : arg7.IsWhole) (arg8 : Memref sig .tc .vmem S512x4096 .f32) (harg8 : arg8.IsWhole) (arg9 : Memref sig .tc .vmem S512x4096 .f32) (harg9 : arg9.IsWhole) (hc0 : ¬isFirst i) (hc1 : isLast i)
    (x0 : Vec F S512x512 .f32) (x1 : Vec F S512x4096 .bf16) (x2 : Vec F S512x4096 .bf16) (x3 : Vec F S4096 .f32) (x4 : Vec F S4096 .f32) (xa xb : Vec F S512x4096 .f32) (y : S512x4096.Idx) :
    ∃ pc ∈ (runLast (F := F) c i arg2 harg2 arg3 harg3 arg4 harg4 arg5 harg5 arg6 harg6 arg7 harg7 arg8 harg8 arg9 harg9 hc0 hc1 x0 x1 x2 x3 x4 xa xb).2.1, y ∈ pc.1.set :=
  View.cover_of_tiledL _ S512x4096.size (by sl_kernel_rfl) y

set_option maxHeartbeats 4000000 in
/-- The body at any point: every input's buffer holds its block; the point's residue modulo 8 selects the case;
    the accumulators are handed over at what the point before left (at anything at the very first point) and taken
    back at this point's contents; the output's buffer is taken back at `outAt t (Y 5)`. -/
theorem sound_body (c : Dev nD) (t : Fin cfg0.N) (Y : (w : Fin cfg0.W) → (cfg0.win w).block.Idx → Elt F (cfg0.win w).elt)
    (hY : ∀ w, (rdat m c).Finds w t (Y w)) :
    bodyPre m c t Y ⊢ wp frame (wpE (defs₀ (F := F)) Variants.none c none) Set.univ (bodyAt0 t) (fun _ => bodyPost m c t Y) := by
  unfold bodyPre bodyPost bodyAt0
  rw [finds0 m c t _ (hY 0), finds1 m c t _ (hY 1), finds2 m c t _ (hY 2), finds3 m c t _ (hY 3), finds4 m c t _ (hY 4)]
  rw [show (rdat m c).owesAt () t.succ = (rdat m c).owesAt () t.castSucc from rfl]
  rw [show (rdat m c).Φ t.succ = inv m c (t.val + 1) t.isLt from rfl, inv_succ]
  have hN : t.val < 128 := lt_of_lt_of_eq t.isLt (show cfg0.N = 128 from N_0)
  by_cases h0 : t.val % 8 = 0
  · have h1 : ¬t.val % 8 = 7 := by omega
    rw [accAt_first m c t h0 h1]; dsimp only
    by_cases hz : t.val = 0
    · rw [inv_castSucc m c t, inv_zero m c _ _ hz, restInv_eq]
      iintro ⟨⟨⟨HS0, HS1⟩, Hg⟩, Ho, H0, H1, H2, H3, H4, H5⟩
      iapply (((firstAt m c t h0 h1).2.2 (Y 5)).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirst1 _ _ _ _ _ _ _ _ _ _ _ _ _ _ _ _ _ _ _ _ _ _ _ _ _)
          unfold owns; iexists _; isplitr
          swap; · iexact HS1
          ipureintro; exact View.read_writes_of_cover _ _ _ _ _ (coverFirst2 _ _ _ _ _ _ _ _ _ _ _ _ _ _ _ _ _ _ _ _ _ _ _ _ _)
        iexact Hg
      isplitl [Ho]; · iexact Ho
      isplitl [H0]
      · iexists _; isplitr; · ipureintro; rfl
        iexact H0
      isplitl [H1]
      · iexists _; isplitr; · ipureintro; rfl
        iexact H1
      isplitl [H2]
      · iexists _; isplitr; · ipureintro; rfl
        iexact H2
      isplitl [H3]
      · iexists _; isplitr; · ipureintro; rfl
        iexact H3
      isplitl [H4]
      · iexists _; isplitr; · ipureintro; rfl
        iexact H4
      iexists (outAt m c t (Y 5)); isplitr
      · ipureintro; rfl
      unfold owns; iexists _; isplitr
      swap; · iexact H5
      ipureintro; unfold outAt; rw [dif_pos h0]; rfl
    · rw [inv_castSucc m c t, inv_pos m c _ _ hz]
      iintro ⟨⟨⟨HS0, HS1⟩, Hg⟩, Ho, H0, H1, H2, H3, H4, H5⟩
      iapply (((firstAt m c t h0 h1).2.2 (Y 5)).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirst1 _ _ _ _ _ _ _ _ _ _ _ _ _ _ _ _ _ _ _ _ _ _ _ _ _)
          unfold owns; iexists _; isplitr
          swap; · iexact HS1
          ipureintro; exact View.read_writes_of_cover _ _ _ _ _ (coverFirst2 _ _ _ _ _ _ _ _ _ _ _ _ _ _ _ _ _ _ _ _ _ _ _ _ _)
        iexact Hg
      isplitl [Ho]; · iexact Ho
      isplitl [H0]
      · iexists _; isplitr; · ipureintro; rfl
        iexact H0
      isplitl [H1]
      · iexists _; isplitr; · ipureintro; rfl
        iexact H1
      isplitl [H2]
      · iexists _; isplitr; · ipureintro; rfl
        iexact H2
      isplitl [H3]
      · iexists _; isplitr; · ipureintro; rfl
        iexact H3
      isplitl [H4]
      · iexists _; isplitr; · ipureintro; rfl
        iexact H4
      iexists (outAt m c t (Y 5)); isplitr
      · ipureintro; rfl
      unfold owns; iexists _; isplitr
      swap; · iexact H5
      ipureintro; unfold outAt; rw [dif_pos h0]; rfl
  · have hz : t.val ≠ 0 := fun e => h0 (by rw [e])
    by_cases h1 : t.val % 8 = 7
    · rw [accAt_last m c t h0 h1]; dsimp only
      rw [inv_castSucc m c t, inv_pos m c _ _ hz]
      iintro ⟨⟨⟨HS0, HS1⟩, Hg⟩, Ho, H0, H1, H2, H3, H4, H5⟩
      iapply (((lastAt m c t h0 h1 (accBefore m c t).1 (accBefore m c t).2).2.2 (Y 5)).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverLast1 _ _ _ _ _ _ _ _ _ _ _ _ _ _ _ _ _ _ _ _ _ _ _ _ _ _ _)
          unfold owns; iexists _; isplitr
          swap; · iexact HS1
          ipureintro; exact View.read_writes_of_cover _ _ _ _ _ (coverLast2 _ _ _ _ _ _ _ _ _ _ _ _ _ _ _ _ _ _ _ _ _ _ _ _ _ _ _)
        iexact Hg
      isplitl [Ho]; · iexact Ho
      isplitl [H0]
      · iexists _; isplitr; · ipureintro; rfl
        iexact H0
      isplitl [H1]
      · iexists _; isplitr; · ipureintro; rfl
        iexact H1
      isplitl [H2]
      · iexists _; isplitr; · ipureintro; rfl
        iexact H2
      isplitl [H3]
      · iexists _; isplitr; · ipureintro; rfl
        iexact H3
      isplitl [H4]
      · iexists _; isplitr; · ipureintro; rfl
        iexact H4
      iexists (outAt m c t (Y 5)); isplitr
      · ipureintro; rfl
      unfold owns; iexists _; isplitr
      swap; · iexact H5
      ipureintro; unfold outAt; rw [dif_neg h0, dif_pos h1]; rfl
    · rw [accAt_mid m c t h0 h1]; dsimp only
      rw [inv_castSucc m c t, inv_pos m c _ _ hz]
      iintro ⟨⟨⟨HS0, HS1⟩, Hg⟩, Ho, H0, H1, H2, H3, H4, H5⟩
      iapply (((midAt m c t h0 h1 (accBefore m c t).1 (accBefore m c t).2).2.2 (Y 5)).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverMid1 _ _ _ _ _ _ _ _ _ _ _ _ _ _ _ _ _ _ _ _ _ _ _ _ _ _ _)
          unfold owns; iexists _; isplitr
          swap; · iexact HS1
          ipureintro; exact View.read_writes_of_cover _ _ _ _ _ (coverMid2 _ _ _ _ _ _ _ _ _ _ _ _ _ _ _ _ _ _ _ _ _ _ _ _ _ _ _)
        iexact Hg
      isplitl [Ho]; · iexact Ho
      isplitl [H0]
      · iexists _; isplitr; · ipureintro; rfl
        iexact H0
      isplitl [H1]
      · iexists _; isplitr; · ipureintro; rfl
        iexact H1
      isplitl [H2]
      · iexists _; isplitr; · ipureintro; rfl
        iexact H2
      isplitl [H3]
      · iexists _; isplitr; · ipureintro; rfl
        iexact H3
      isplitl [H4]
      · iexists _; isplitr; · ipureintro; rfl
        iexact H4
      iexists (outAt m c t (Y 5)); isplitr
      · ipureintro; rfl
      unfold owns; iexists _; isplitr
      swap; · iexact H5
      ipureintro; unfold outAt; rw [dif_neg h0, dif_neg h1]; rfl

/-- The library's relational body obligation, at every point. -/
theorem body_obligation (c : Dev nD) : (rdat (F := F) m c).BodyObligation (defs₀ (F := F)) Variants.none () Set.univ := fun t Y hY => by
  rw [bigSep_W0, bigSep_W0]
  exact sound_body m c t Y hY

/-- What the region hands over is the invariant before the first point. -/
theorem inv_in (c : Dev nD) : Pipeline.ΦA spec0 c ⊢ (rdat m c).Φ 0 := by
  rw [show (rdat m c).Φ 0 = inv m c 0 (Nat.zero_le _) from rfl, inv_zero m c 0 _ rfl]

/-- After the last point the invariant gives it back, the accumulators' contents forgotten. -/
theorem inv_out (c : Dev nD) : (rdat m c).Φ (Fin.last cfg0.N) ⊢ Pipeline.ΦA spec0 c := by
  rw [show (rdat m c).Φ (Fin.last cfg0.N) = inv m c (Fin.last cfg0.N).val (Nat.le_of_lt_succ (Fin.last cfg0.N).isLt) from rfl,
    inv_pos m c _ _ (by rw [Fin.val_last]; have : cfg0.N = 128 := N_0; omega), restInv_eq]
  iintro ⟨⟨HS0, HS1⟩, Hg⟩
  isplitl [HS0 HS1]
  · isplitl [HS0]
    · iexists _; iexact HS0
    iexists _; iexact HS1
  iexact Hg

/-! ## The run -/

set_option backward.isDefEq.respectTransparency.types false in
/-- Every weakly fair execution of @main terminates without a fault; afterwards every array a window stages holds
    contents the proof data allow after all write-backs, and every other unscoped buffer its region-entry contents. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := rdat_A m) (hin := inv_in m) (hout := inv_out m)

/-- The argument arrays end as launched: the staged ones are inputs, never written back; the two weight matrices
    are staged by no window (the region reads their transposes) and no host operation writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(Eq.mp (congrFun ((rdat m c).ArrAt_in 0 rfl _) _) ((h c).1 0)).trans ((rdat_A m c 0).trans (V_main_arg0 m c)),
      ((h c).2 main_arg1 (Pipeline.mem_restRefs_of main_arg1 (by decide) (by decide))).trans (V_main_arg1 m c),
      (Eq.mp (congrFun ((rdat m c).ArrAt_in 3 rfl _) _) ((h c).1 3)).trans ((rdat_A m c 3).trans (V_main_arg2 m c)),
      ((h c).2 main_arg3 (Pipeline.mem_restRefs_of main_arg3 (by decide) (by decide))).trans (V_main_arg3 m c),
      (Eq.mp (congrFun ((rdat m c).ArrAt_in 4 rfl _) _) ((h c).1 4)).trans ((rdat_A m c 4).trans (V_main_arg4 m c))⟩) (run_main m ρ)

end Cert.KernelIdeal.Hand

end
-- ==== Proof.Opened.lean ====
/-
  The runs, opened: what each case's stores leave, as the body's own payloads of the blocks.

  An accumulator ends every point covered by one whole store, so it holds that store's payload: at j = 0 the chunk's
  product added to the zero fill, at every later j the chunk's product added to what the accumulator held.  The
  output's buffer has the column chunk [512·j, 512·j + 512) overwritten by the chunk of f and every other element
  as found; at j = 7 the whole block is then stored: the finishing payload of the two accumulators, the two biases
  and the buffer's own contents (the chunk just written included).
-/
import proofs.«140654_j38603166056700_2_alg».proof.Proof.BodyData
import Idealize.ShloMosaic.Lib.WritesUnit
import Idealize.ShloMosaic.Lib.Pipeline.Value
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz1 : (![0] : Fin 1 → Nat) = fun _ => 0 := funext fun a => by fin_cases a; rfl

/-- The output buffer found at yo with the point's column chunk overwritten by the chunk x0 of f. -/
def putChunk (i : grid0.Coords) (arg7 : Memref sig .tc .vmem S512x4096 .f32) (harg7 : arg7.IsWhole)
    (x0 : Vec F S512x512 .f32) (yo : Vec F S512x4096 .f32) : Vec F S512x4096 .f32 :=
  arg7.view.read (Elt F) (arg7.view.writes (Elt F) (harg7.unread yo)
    [(⟨Rect.unit (s := S512x4096) (k0_off1 i) S512x512.size (k0_off1_inb i), x0⟩ : View.Piece (Elt F) S512x4096 .f32)])

/-- A buffer whose newest store is whole reads that store's payload, whatever came before. -/
theorem read_writes_cons_whole {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- The chunk overwrite at an index: inside the point's column chunk the chunk of f, elsewhere as found. -/
theorem putChunk_apply (i : grid0.Coords) (arg7 : Memref sig .tc .vmem S512x4096 .f32) (harg7 : arg7.IsWhole)
    (x0 : Vec F S512x512 .f32) (yo : Vec F S512x4096 .f32) (y : S512x4096.Idx) :
    putChunk i arg7 harg7 x0 yo y =
      if h : ∀ a, k0_off1 i a ≤ (y a).val ∧ (y a).val < k0_off1 i a + S512x512.size a then
        x0 (Rect.unitLocal (s := S512x4096) (off := k0_off1 i) (size := S512x512.size) y h)
      else yo y := by
  unfold putChunk
  rw [View.read_writes_cons_unit arg7.view _ (k0_off1_inb i) x0 [] y rfl]
  simp only [View.writes_nil, harg7.read_unread]

/-! ## The accumulators -/

theorem canonFirst1 (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096 .f32) (harg5 : arg5.IsWhole) (arg6 : Memref sig .tc .vmem S4096 .f32) (harg6 : arg6.IsWhole) (arg7 : Memref sig .tc .vmem S512x4096 .f32) (harg7 : arg7.IsWhole) (arg8 : Memref sig .tc .vmem S512x4096 .f32) (harg8 : arg8.IsWhole) (arg9 : Memref sig .tc .vmem S512x4096 .f32) (harg9 : arg9.IsWhole) (hc0 : isFirst i) (hc1 : ¬isLast i) (x0 : Vec F S512x512 .f32) (x1 : Vec F S512x4096 .bf16) (x2 : Vec F S512x4096 .bf16) (x3 : Vec F S4096 .f32) (x4 : Vec F S4096 .f32) : View.canon (runFirst (F := F) c i arg2 harg2 arg3 harg3 arg4 harg4 arg5 harg5 arg6 harg6 arg7 harg7 arg8 harg8 arg9 harg9 hc0 hc1 x0 x1 x2 x3 x4).1 = k0_pay4 x0 x1 (k0_pay1 (F := F)) := by
  unfold runFirst; dsimp only; sl_unfold_words
  rw [View.canon_cons_unit_zero (S := S512x4096) hz2, View.readCov_unit_zero (S := S512x4096) _ hz2]
  simp only [View.readAt_eq_ld, harg2.read_unread, harg3.read_unread, harg4.read_unread, harg5.read_unread, harg6.read_unread, harg8.read_unread, harg9.read_unread, View.ld_unit_zero (S := S512x512) hz2, View.ld_unit_zero (S := S512x4096) hz2, View.ld_unit_zero (S := S4096) hz1]

theorem canonFirst2 (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096 .f32) (harg5 : arg5.IsWhole) (arg6 : Memref sig .tc .vmem S4096 .f32) (harg6 : arg6.IsWhole) (arg7 : Memref sig .tc .vmem S512x4096 .f32) (harg7 : arg7.IsWhole) (arg8 : Memref sig .tc .vmem S512x4096 .f32) (harg8 : arg8.IsWhole) (arg9 : Memref sig .tc .vmem S512x4096 .f32) (harg9 : arg9.IsWhole) (hc0 : isFirst i) (hc1 : ¬isLast i) (x0 : Vec F S512x512 .f32) (x1 : Vec F S512x4096 .bf16) (x2 : Vec F S512x4096 .bf16) (x3 : Vec F S4096 .f32) (x4 : Vec F S4096 .f32) : View.canon (runFirst (F := F) c i arg2 harg2 arg3 harg3 arg4 harg4 arg5 harg5 arg6 harg6 arg7 harg7 arg8 harg8 arg9 harg9 hc0 hc1 x0 x1 x2 x3 x4).2.1 = k0_pay5 x0 x2 (k0_pay2 (F := F)) := by
  unfold runFirst; dsimp only; sl_unfold_words
  rw [View.canon_cons_unit_zero (S := S512x4096) hz2, View.readCov_unit_zero (S := S512x4096) _ hz2]
  simp only [View.readAt_eq_ld, harg2.read_unread, harg3.read_unread, harg4.read_unread, harg5.read_unread, harg6.read_unread, harg8.read_unread, harg9.read_unread, View.ld_unit_zero (S := S512x512) hz2, View.ld_unit_zero (S := S512x4096) hz2, View.ld_unit_zero (S := S4096) hz1]

theorem canonMid1 (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096 .f32) (harg5 : arg5.IsWhole) (arg6 : Memref sig .tc .vmem S4096 .f32) (harg6 : arg6.IsWhole) (arg7 : Memref sig .tc .vmem S512x4096 .f32) (harg7 : arg7.IsWhole) (arg8 : Memref sig .tc .vmem S512x4096 .f32) (harg8 : arg8.IsWhole) (arg9 : Memref sig .tc .vmem S512x4096 .f32) (harg9 : arg9.IsWhole) (hc0 : ¬isFirst i) (hc1 : ¬isLast i) (x0 : Vec F S512x512 .f32) (x1 : Vec F S512x4096 .bf16) (x2 : Vec F S512x4096 .bf16) (x3 : Vec F S4096 .f32) (x4 : Vec F S4096 .f32) (xa xb : Vec F S512x4096 .f32) : View.canon (runMid (F := F) c i arg2 harg2 arg3 harg3 arg4 harg4 arg5 harg5 arg6 harg6 arg7 harg7 arg8 harg8 arg9 harg9 hc0 hc1 x0 x1 x2 x3 x4 xa xb).1 = k0_pay4 x0 x1 xa := by
  unfold runMid; dsimp only
  rw [View.canon_unit_zero hz2]
  simp only [View.readAt_eq_ld, harg2.read_unread, harg3.read_unread, harg4.read_unread, harg5.read_unread, harg6.read_unread, harg8.read_unread, harg9.read_unread, View.ld_unit_zero (S := S512x512) hz2, View.ld_unit_zero (S := S512x4096) hz2, View.ld_unit_zero (S := S4096) hz1]

theorem canonMid2 (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096 .f32) (harg5 : arg5.IsWhole) (arg6 : Memref sig .tc .vmem S4096 .f32) (harg6 : arg6.IsWhole) (arg7 : Memref sig .tc .vmem S512x4096 .f32) (harg7 : arg7.IsWhole) (arg8 : Memref sig .tc .vmem S512x4096 .f32) (harg8 : arg8.IsWhole) (arg9 : Memref sig .tc .vmem S512x4096 .f32) (harg9 : arg9.IsWhole) (hc0 : ¬isFirst i) (hc1 : ¬isLast i) (x0 : Vec F S512x512 .f32) (x1 : Vec F S512x4096 .bf16) (x2 : Vec F S512x4096 .bf16) (x3 : Vec F S4096 .f32) (x4 : Vec F S4096 .f32) (xa xb : Vec F S512x4096 .f32) : View.canon (runMid (F := F) c i arg2 harg2 arg3 harg3 arg4 harg4 arg5 harg5 arg6 harg6 arg7 harg7 arg8 harg8 arg9 harg9 hc0 hc1 x0 x1 x2 x3 x4 xa xb).2.1 = k0_pay5 x0 x2 xb := by
  unfold runMid; dsimp only
  rw [View.canon_unit_zero hz2]
  simp only [View.readAt_eq_ld, harg2.read_unread, harg3.read_unread, harg4.read_unread, harg5.read_unread, harg6.read_unread, harg8.read_unread, harg9.read_unread, View.ld_unit_zero (S := S512x512) hz2, View.ld_unit_zero (S := S512x4096) hz2, View.ld_unit_zero (S := S4096) hz1]

theorem canonLast1 (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096 .f32) (harg5 : arg5.IsWhole) (arg6 : Memref sig .tc .vmem S4096 .f32) (harg6 : arg6.IsWhole) (arg7 : Memref sig .tc .vmem S512x4096 .f32) (harg7 : arg7.IsWhole) (arg8 : Memref sig .tc .vmem S512x4096 .f32) (harg8 : arg8.IsWhole) (arg9 : Memref sig .tc .vmem S512x4096 .f32) (harg9 : arg9.IsWhole) (hc0 : ¬isFirst i) (hc1 : isLast i) (x0 : Vec F S512x512 .f32) (x1 : Vec F S512x4096 .bf16) (x2 : Vec F S512x4096 .bf16) (x3 : Vec F S4096 .f32) (x4 : Vec F S4096 .f32) (xa xb : Vec F S512x4096 .f32) : View.canon (runLast (F := F) c i arg2 harg2 arg3 harg3 arg4 harg4 arg5 harg5 arg6 harg6 arg7 harg7 arg8 harg8 arg9 harg9 hc0 hc1 x0 x1 x2 x3 x4 xa xb).1 = k0_pay4 x0 x1 xa := by
  unfold runLast; dsimp only; sl_unfold_words
  rw [View.canon_unit_zero hz2]
  simp only [View.readAt_eq_ld, harg2.read_unread, harg3.read_unread, harg4.read_unread, harg5.read_unread, harg6.read_unread, harg8.read_unread, harg9.read_unread, View.ld_unit_zero (S := S512x512) hz2, View.ld_unit_zero (S := S512x4096) hz2, View.ld_unit_zero (S := S4096) hz1]

theorem canonLast2 (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096 .f32) (harg5 : arg5.IsWhole) (arg6 : Memref sig .tc .vmem S4096 .f32) (harg6 : arg6.IsWhole) (arg7 : Memref sig .tc .vmem S512x4096 .f32) (harg7 : arg7.IsWhole) (arg8 : Memref sig .tc .vmem S512x4096 .f32) (harg8 : arg8.IsWhole) (arg9 : Memref sig .tc .vmem S512x4096 .f32) (harg9 : arg9.IsWhole) (hc0 : ¬isFirst i) (hc1 : isLast i) (x0 : Vec F S512x512 .f32) (x1 : Vec F S512x4096 .bf16) (x2 : Vec F S512x4096 .bf16) (x3 : Vec F S4096 .f32) (x4 : Vec F S4096 .f32) (xa xb : Vec F S512x4096 .f32) : View.canon (runLast (F := F) c i arg2 harg2 arg3 harg3 arg4 harg4 arg5 harg5 arg6 harg6 arg7 harg7 arg8 harg8 arg9 harg9 hc0 hc1 x0 x1 x2 x3 x4 xa xb).2.1 = k0_pay5 x0 x2 xb := by
  unfold runLast; dsimp only; sl_unfold_words
  rw [View.canon_unit_zero hz2]
  simp only [View.readAt_eq_ld, harg2.read_unread, harg3.read_unread, harg4.read_unread, harg5.read_unread, harg6.read_unread, harg8.read_unread, harg9.read_unread, View.ld_unit_zero (S := S512x512) hz2, View.ld_unit_zero (S := S512x4096) hz2, View.ld_unit_zero (S := S4096) hz1]

/-! ## The output's buffer -/

theorem outFirst (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096 .f32) (harg5 : arg5.IsWhole) (arg6 : Memref sig .tc .vmem S4096 .f32) (harg6 : arg6.IsWhole) (arg7 : Memref sig .tc .vmem S512x4096 .f32) (harg7 : arg7.IsWhole) (arg8 : Memref sig .tc .vmem S512x4096 .f32) (harg8 : arg8.IsWhole) (arg9 : Memref sig .tc .vmem S512x4096 .f32) (harg9 : arg9.IsWhole) (hc0 : isFirst i) (hc1 : ¬isLast i) (x0 : Vec F S512x512 .f32) (x1 : Vec F S512x4096 .bf16) (x2 : Vec F S512x4096 .bf16) (x3 : Vec F S4096 .f32) (x4 : Vec F S4096 .f32) (yo : Vec F S512x4096 .f32) :
    arg7.view.read (Elt F) (arg7.view.writes (Elt F) (harg7.unread yo) ((runFirst (F := F) c i arg2 harg2 arg3 harg3 arg4 harg4 arg5 harg5 arg6 harg6 arg7 harg7 arg8 harg8 arg9 harg9 hc0 hc1 x0 x1 x2 x3 x4).2.2 yo).1) = putChunk i arg7 harg7 x0 yo := by
  unfold runFirst putChunk; dsimp only
  simp only [View.readAt_eq_ld, harg2.read_unread, harg3.read_unread, harg4.read_unread, harg5.read_unread, harg6.read_unread, harg8.read_unread, harg9.read_unread, View.ld_unit_zero (S := S512x512) hz2, View.ld_unit_zero (S := S512x4096) hz2, View.ld_unit_zero (S := S4096) hz1]

theorem outMid (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096 .f32) (harg5 : arg5.IsWhole) (arg6 : Memref sig .tc .vmem S4096 .f32) (harg6 : arg6.IsWhole) (arg7 : Memref sig .tc .vmem S512x4096 .f32) (harg7 : arg7.IsWhole) (arg8 : Memref sig .tc .vmem S512x4096 .f32) (harg8 : arg8.IsWhole) (arg9 : Memref sig .tc .vmem S512x4096 .f32) (harg9 : arg9.IsWhole) (hc0 : ¬isFirst i) (hc1 : ¬isLast i) (x0 : Vec F S512x512 .f32) (x1 : Vec F S512x4096 .bf16) (x2 : Vec F S512x4096 .bf16) (x3 : Vec F S4096 .f32) (x4 : Vec F S4096 .f32) (xa xb : Vec F S512x4096 .f32) (yo : Vec F S512x4096 .f32) :
    arg7.view.read (Elt F) (arg7.view.writes (Elt F) (harg7.unread yo) ((runMid (F := F) c i arg2 harg2 arg3 harg3 arg4 harg4 arg5 harg5 arg6 harg6 arg7 harg7 arg8 harg8 arg9 harg9 hc0 hc1 x0 x1 x2 x3 x4 xa xb).2.2 yo).1) = putChunk i arg7 harg7 x0 yo := by
  unfold runMid putChunk; dsimp only
  simp only [View.readAt_eq_ld, harg2.read_unread, harg3.read_unread, harg4.read_unread, harg5.read_unread, harg6.read_unread, harg8.read_unread, harg9.read_unread, View.ld_unit_zero (S := S512x512) hz2, View.ld_unit_zero (S := S512x4096) hz2, View.ld_unit_zero (S := S4096) hz1]

theorem outLast (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096 .f32) (harg5 : arg5.IsWhole) (arg6 : Memref sig .tc .vmem S4096 .f32) (harg6 : arg6.IsWhole) (arg7 : Memref sig .tc .vmem S512x4096 .f32) (harg7 : arg7.IsWhole) (arg8 : Memref sig .tc .vmem S512x4096 .f32) (harg8 : arg8.IsWhole) (arg9 : Memref sig .tc .vmem S512x4096 .f32) (harg9 : arg9.IsWhole) (hc0 : ¬isFirst i) (hc1 : isLast i) (x0 : Vec F S512x512 .f32) (x1 : Vec F S512x4096 .bf16) (x2 : Vec F S512x4096 .bf16) (x3 : Vec F S4096 .f32) (x4 : Vec F S4096 .f32) (xa xb : Vec F S512x4096 .f32) (yo : Vec F S512x4096 .f32) :
    arg7.view.read (Elt F) (arg7.view.writes (Elt F) (harg7.unread yo) ((runLast (F := F) c i arg2 harg2 arg3 harg3 arg4 harg4 arg5 harg5 arg6 harg6 arg7 harg7 arg8 harg8 arg9 harg9 hc0 hc1 x0 x1 x2 x3 x4 xa xb).2.2 yo).1)
      = k0_pay6 (k0_pay4 x0 x1 xa) x3 (k0_pay5 x0 x2 xb) x4 (putChunk i arg7 harg7 x0 yo) := by
  unfold runLast putChunk; dsimp only; sl_unfold_words
  rw [read_writes_cons_whole _ _ hz2]
  rw [View.readCov_unit_zero (S := S512x4096) _ hz2, View.readCov_unit_zero (S := S512x4096) _ hz2]
  simp only [View.readAt_eq_ld, harg2.read_unread, harg3.read_unread, harg4.read_unread, harg5.read_unread, harg6.read_unread, harg8.read_unread, harg9.read_unread, View.ld_unit_zero (S := S512x512) hz2, View.ld_unit_zero (S := S512x4096) hz2, View.ld_unit_zero (S := S4096) hz1]

end Cert.KernelIdeal.Hand

end
-- ==== Proof.PointOpen.lean ====
/-
  The proof data at a point, in the body's payloads of the point's blocks.

  After a first-chunk point each accumulator is the chunk's product added to the zero fill; after any later point it
  is the chunk's product added to what the point before left.  What the output's buffer is left holding is, before
  the last chunk, what was found with the point's column chunk overwritten by the chunk of f; at the last chunk the
  finishing payload of this point's accumulators, the biases, and that overwritten buffer.
-/
import proofs.«140654_j38603166056700_2_alg».proof.Proof.Opened

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem acc_first (c : Dev nD) (t : Fin cfg0.N) (h0 : t.val % 8 = 0) :
    accAt m c t.val t.isLt = (k0_pay4 (iblk m c 0 t) (iblk m c 1 t) (k0_pay1 (F := F)), k0_pay5 (iblk m c 0 t) (iblk m c 2 t) (k0_pay2 (F := F))) := by
  have h1 : ¬t.val % 8 = 7 := by omega
  rw [accAt_first m c t h0 h1]
  unfold readAcc1 readAcc2 firstAt
  rw [View.read_writes_eq_canon _ _ _ (coverFirst1 _ _ _ _ _ _ _ _ _ _ _ _ _ _ _ _ _ _ _ _ _ _ _ _ _), View.read_writes_eq_canon _ _ _ (coverFirst2 _ _ _ _ _ _ _ _ _ _ _ _ _ _ _ _ _ _ _ _ _ _ _ _ _),
    canonFirst1, canonFirst2]

theorem acc_later (c : Dev nD) (t : Fin cfg0.N) (h0 : ¬t.val % 8 = 0) :
    accAt m c t.val t.isLt = (k0_pay4 (iblk m c 0 t) (iblk m c 1 t) (accBefore m c t).1, k0_pay5 (iblk m c 0 t) (iblk m c 2 t) (accBefore m c t).2) := by
  by_cases h1 : t.val % 8 = 7
  · rw [accAt_last m c t h0 h1]
    unfold readAcc1 readAcc2 lastAt
    rw [View.read_writes_eq_canon _ _ _ (coverLast1 _ _ _ _ _ _ _ _ _ _ _ _ _ _ _ _ _ _ _ _ _ _ _ _ _ _ _), View.read_writes_eq_canon _ _ _ (coverLast2 _ _ _ _ _ _ _ _ _ _ _ _ _ _ _ _ _ _ _ _ _ _ _ _ _ _ _),
      canonLast1, canonLast2]
  · rw [accAt_mid m c t h0 h1]
    unfold readAcc1 readAcc2 midAt
    rw [View.read_writes_eq_canon _ _ _ (coverMid1 _ _ _ _ _ _ _ _ _ _ _ _ _ _ _ _ _ _ _ _ _ _ _ _ _ _ _), View.read_writes_eq_canon _ _ _ (coverMid2 _ _ _ _ _ _ _ _ _ _ _ _ _ _ _ _ _ _ _ _ _ _ _ _ _ _ _),
      canonMid1, canonMid2]

theorem out_early (c : Dev nD) (t : Fin cfg0.N) (h1 : ¬t.val % 8 = 7) (Y : Vec F S512x4096 .f32) :
    outAt m c t Y = putChunk (grid0.coords t) (mo t) (hmo t) (iblk m c 0 t) Y := by
  unfold outAt
  by_cases h0 : t.val % 8 = 0
  · rw [dif_pos h0]; unfold readOut firstAt; exact outFirst ..
  · rw [dif_neg h0, dif_neg h1]; unfold readOut midAt; exact outMid ..

theorem out_last (c : Dev nD) (t : Fin cfg0.N) (h1 : t.val % 8 = 7) (Y : Vec F S512x4096 .f32) :
    outAt m c t Y = k0_pay6 (accAt m c t.val t.isLt).1 (iblk m c 3 t) (accAt m c t.val t.isLt).2 (iblk m c 4 t)
      (putChunk (grid0.coords t) (mo t) (hmo t) (iblk m c 0 t) Y) := by
  have h0 : ¬t.val % 8 = 0 := by omega
  rw [acc_later m c t h0]
  unfold outAt
  rw [dif_neg h0, dif_pos h1]; unfold readOut lastAt; exact outLast ..

end Cert.KernelIdeal.Hand

end
-- ==== Proof.Spec.lean ====
/-
  The layer this kernel computes, as one function of the argument arrays over the extended reals.

  For a row n of f, the scores against a (transposed) weight matrix wt and bias b are
      s(k) = (sum over d of f(n, d) * wt(d, k)) + b(k),
  the row softmax is exp(s(k) - M) / (sum over k' of exp(s(k') - M)) with M the greatest score of the row (the fold
  of max from minus infinity), and the layer adds both softmaxes to the row of f:
      out(n, k) = (f(n, k) + softmax(s1)(k)) + softmax(s2)(k).
  Nothing here mentions a program: both the kernel and the reference are shown to compute `layer`.
-/
import Idealize.ShloMosaic.PureOps.Ideal
import Idealize.ShloMosaic.PureOps.Ideal.Laws
import Idealize.ShloMosaic.Lib.ValueIdx

noncomputable section

namespace Cert.RowTile

open Idealize.ShloMosaic Idealize.ShloMosaic.ValueIdx

/-- The greatest entry of a row: the fold of max from minus infinity. -/
def rowMax {n : ℕ} (z : Fin n → EReal) : EReal :=
  (Finset.univ : Finset (Fin n)).fold max (Ideal.ofBits .f32 0xFF800000#32) z

/-- The row softmax at k, with the row's greatest entry subtracted before the exponential. -/
def softmaxRow {n : ℕ} (z : Fin n → EReal) (k : Fin n) : EReal :=
  Ideal.div (Ideal.exp (z k - rowMax z)) (∑ k' : Fin n, Ideal.exp (z k' - rowMax z))

/-- A weight matrix transposed: entry (d, k) is the matrix's entry (k, d). -/
def transposed (x : (⟨2, ![4096, 4096]⟩ : Shape).Idx → EReal) : (⟨2, ![4096, 4096]⟩ : Shape).Idx → EReal :=
  fun i => x (ix2 (i 1) (i 0))

/-- The scores of row n against the columns of the transposed weights, plus the bias. -/
def scores (f : (⟨2, ![8192, 4096]⟩ : Shape).Idx → EReal) (wt : (⟨2, ![4096, 4096]⟩ : Shape).Idx → EReal)
    (b : (⟨1, ![4096]⟩ : Shape).Idx → EReal) (n : Fin 8192) (k : Fin 4096) : EReal :=
  (∑ d : Fin 4096, f (ix2 n d) * wt (ix2 d k)) + b (ix1 k)

/-- The layer at row n, column k. -/
def layerAt (f : (⟨2, ![8192, 4096]⟩ : Shape).Idx → EReal) (wt1 : (⟨2, ![4096, 4096]⟩ : Shape).Idx → EReal)
    (b1 : (⟨1, ![4096]⟩ : Shape).Idx → EReal) (wt2 : (⟨2, ![4096, 4096]⟩ : Shape).Idx → EReal)
    (b2 : (⟨1, ![4096]⟩ : Shape).Idx → EReal) (n : Fin 8192) (k : Fin 4096) : EReal :=
  (f (ix2 n k) + softmaxRow (scores f wt1 b1 n) k) + softmaxRow (scores f wt2 b2 n) k

/-- The layer, as an array. -/
def layer (f : (⟨2, ![8192, 4096]⟩ : Shape).Idx → EReal) (wt1 : (⟨2, ![4096, 4096]⟩ : Shape).Idx → EReal)
    (b1 : (⟨1, ![4096]⟩ : Shape).Idx → EReal) (wt2 : (⟨2, ![4096, 4096]⟩ : Shape).Idx → EReal)
    (b2 : (⟨1, ![4096]⟩ : Shape).Idx → EReal) : (⟨2, ![8192, 4096]⟩ : Shape).Idx → EReal :=
  fun i => layerAt f wt1 b1 wt2 b2 (i 0) (i 1)

end Cert.RowTile

end
-- ==== Proof.LibRowReads.lean ====
/-
  Reductions along the LAST axis of a matrix, read at an index given by coordinates, over arbitrary extents and at the
  ideal values; and one layout read:
  • a `[1, 1, a]` array cast to `[a]`;
  • a `vector.multi_reduction` over axis 1 of an `[a, b]` matrix, at row `p`: for `add` the sum along the row, for
    `maximumf` the fold of `max` along the row from the accumulator's value.
  The column forms (axis 0) are in LibColumnReads; these are the row forms.
-/
import Idealize.ShloMosaic.Lib.ValueIdx
import Idealize.ShloMosaic.Lib.ValueLayout
import Idealize.ShloMosaic.Lib.Pipeline.Value
import Idealize.ShloMosaic.PureOps.Ideal.Laws

namespace Cert.LibRowReads

open Idealize.ShloMosaic Idealize.ShloMosaic.ValueIdx

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- Row `p` of an `[a, b]` matrix with column `k` put back is `(p, k)`. -/
theorem lift_row {a b : ℕ} (h : (⟨2, ![a, b]⟩ : Shape).Reduces [1] (⟨1, ![a]⟩ : Shape)) (p : Fin a) (k : Fin b) :
    h.lift (ix1 p) k = ix2 p k := by
  funext c; apply Fin.ext
  fin_cases c <;> rfl

/-- A float sum along the rows' entries of an `[a, b]` matrix, at row `p`, is the sum of that row. -/
theorem rowSum_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction (F := Ideal) .add [1] ⟨1, ![a]⟩ v acc h hφ hacc (ix1 p) = ∑ k : Fin b, v (ix2 p k) := by
  rw [Ideal.multiReduction_add_single]
  exact Finset.sum_congr rfl fun k _ => congrArg v (lift_row h p k)

/-- A float maximum along a row of an `[a, b]` matrix, at row `p`, is the fold of `max` along that row from the
    accumulator's value. -/
theorem rowMax_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction (F := Ideal) .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (fun f => Finset.fold max (Ideal.ofBits φ acc) f (Finset.univ : Finset (Fin b)))
    (funext fun k => congrArg v (lift_row h p k))

end Cert.LibRowReads
-- ==== Proof.LibColumnReads.lean ====
/-
  Layout operations and reductions along the FIRST axis of a matrix, read at an index given by coordinates, over
  arbitrary extents and (for the reductions) at the ideal values:
  • a vector [a] cast to a column [a, 1], and a column [a, 1] broadcast to [a, b];
  • a `vector.multi_reduction` over axis 0 of an [a, b] matrix, at column `t`: for `add` the sum over the rows, for
    `maximumf` the fold of `max` over the rows from the accumulator's value;
  • the host's one-operand reduce with a maximum body over the MIDDLE axis of an [a, n, b] array, at (p, q): the fold of
    `max` over that axis from the initial value.
  The row forms ([a] to [1, a], [1, b] to [a, b]) are the library's (Lib/ValueLayout.lean); these are the column forms.
-/
import Idealize.ShloMosaic.Lib.ValueIdx
import Idealize.ShloMosaic.Lib.ValueLayout
import Idealize.ShloMosaic.Lib.Pipeline.Value
import Idealize.ShloMosaic.PureOps.Ideal.Laws

namespace Cert.LibColumnReads

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `t` of an `[a, b]` matrix with row `k` put back is `(k, t)`. -/
theorem lift_ix1 {a b : ℕ} (h : (⟨2, ![a, b]⟩ : Shape).Reduces [0] (⟨1, ![b]⟩ : Shape)) (t : Fin b) (k : Fin a) :
    h.lift (ix1 t) k = ix2 k t := by
  funext c; apply Fin.ext
  fin_cases c <;> rfl

/-- A float sum over the rows of an `[a, b]` matrix, at column `t`, is the sum of that column. -/
theorem colSum_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (t : Fin b) :
    multiReduction (F := Ideal) .add [0] ⟨1, ![b]⟩ v acc h hφ hacc (ix1 t) = ∑ k : Fin a, v (ix2 k t) := by
  rw [Ideal.multiReduction_add_single]
  exact Finset.sum_congr rfl fun k _ => congrArg v (lift_ix1 h t k)

/-- A float maximum over the rows of an `[a, b]` matrix, at column `t`, is the fold of `max` down that column from the
    accumulator's value. -/
theorem colMax_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.maximumf.neutral φ hφ)
    (t : Fin b) :
    multiReduction (F := Ideal) .maximumf [0] ⟨1, ![b]⟩ v acc h hφ hacc (ix1 t)
      = (Finset.univ : Finset (Fin a)).fold max (Ideal.ofBits φ acc) (fun k => v (ix2 k t)) := by
  rw [Ideal.multiReduction_maximumf_single]
  exact congrArg (fun f => Finset.fold max (Ideal.ofBits φ acc) f (Finset.univ : Finset (Fin a)))
    (funext fun k => congrArg v (lift_ix1 h t k))

/-- Position `(p, q)` of an `[a, n, b]` array with middle coordinate `k` put back is `(p, k, q)`. -/
theorem lift_mid {a n b : ℕ} (h : (⟨3, ![a, n, b]⟩ : Shape).Reduces [1] (⟨2, ![a, b]⟩ : Shape)) (p : Fin a) (q : Fin b)
    (k : Fin n) : h.lift (ix2 p q) k = ix3 p k q := by
  funext c; apply Fin.ext
  fin_cases c <;> rfl

/-- The host's reduce with a maximum body over the middle axis of an `[a, n, b]` array, at `(p, q)`, is the fold of
    `max` over that axis from the initial value. -/
theorem hostMidMax_apply {φ : FTy} {a n b : ℕ} {u : Shape} (x : FVec Ideal ⟨3, ![a, n, b]⟩ φ) (init : FVec Ideal u φ)
    (h' : (⟨3, ![a, n, b]⟩ : Shape).ReducesTo [1] (⟨2, ![a, b]⟩ : Shape))
    (h : (⟨3, ![a, n, b]⟩ : Shape).Reduces [1] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p k q)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_mid h p q k))

end Cert.LibColumnReads
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.PayIdeal.lean ====
/-
  The body's payloads read at an index, at the ideal values.

  One accumulator update is the accumulator plus the chunk's product, a sum over the 512 contracted columns of the
  chunk.  The finishing payload adds the bias to each accumulator, forms both row softmaxes over the 4096 scores of
  the row, and adds them to the output block's own contents.
-/
import proofs.«140654_j38603166056700_2_alg».proof.Proof.Gen.KernelIdeal.Skeleton
import proofs.«140654_j38603166056700_2_alg».proof.Proof.Spec
import proofs.«140654_j38603166056700_2_alg».proof.Proof.LibRowReads
import proofs.«140654_j38603166056700_2_alg».proof.Proof.LibColumnReads
import proofs.«140654_j38603166056700_2_alg».proof.Proof.LibPlainDot
import Idealize.ShloMosaic.Lib.ValueLayout
import Idealize.ShloMosaic.Lib.Pipeline.Value
import Idealize.ShloMosaic.PureOps.Ideal.Laws

noncomputable section

namespace Cert.KernelIdeal.PayIdeal

open Cert.KernelIdeal Cert.KernelIdeal.Gen Idealize.ShloMosaic Idealize.ShloMosaic.TcCoe Idealize.ShloMosaic.ValueIdx Cert.RowTile

/-- The zero fill is zero everywhere. -/
theorem pay1_apply (i : S512x4096.Idx) : k0_pay1 (F := Ideal) i = 0 := by
  unfold k0_pay1
  rw [shapeCast_self]
  exact Ideal.ofBits_zero_f32

theorem pay2_apply (i : S512x4096.Idx) : k0_pay2 (F := Ideal) i = 0 := by
  unfold k0_pay2
  rw [shapeCast_self]
  exact Ideal.ofBits_zero_f32

/-- The first accumulator's update: what it held plus the product of the chunk of f with the chunk of weights. -/
theorem pay4_apply (x0 : Vec Ideal S512x512 .f32) (x1 : Vec Ideal S512x4096 .bf16) (xa : Vec Ideal S512x4096 .f32)
    (r : Fin 512) (k : Fin 4096) :
    k0_pay4 (F := Ideal) x0 x1 xa (ix2 r k) = xa (ix2 r k) + ∑ e : Fin 512, x0 (ix2 r e) * x1 (ix2 e k) := by
  unfold k0_pay4 k0_pay3; dsimp only
  rw [shapeCast_self, shapeCast_self, addf_apply]
  exact congrArg (xa (ix2 r k) + ·) (Cert.Lib.PlainDot.matmul_zero_apply 512 512 4096 none _ _ (ix2 r k))

/-- The second accumulator's update, likewise. -/
theorem pay5_apply (x0 : Vec Ideal S512x512 .f32) (x2 : Vec Ideal S512x4096 .bf16) (xb : Vec Ideal S512x4096 .f32)
    (r : Fin 512) (k : Fin 4096) :
    k0_pay5 (F := Ideal) x0 x2 xb (ix2 r k) = xb (ix2 r k) + ∑ e : Fin 512, x0 (ix2 r e) * x2 (ix2 e k) := by
  unfold k0_pay5 k0_pay3; dsimp only
  rw [shapeCast_self, shapeCast_self, addf_apply]
  exact congrArg (xb (ix2 r k) + ·) (Cert.Lib.PlainDot.matmul_zero_apply 512 512 4096 none _ _ (ix2 r k))

/-- A bias vector laid along every row. -/
theorem bias_apply (b : Vec Ideal S4096 .f32) (r : Fin 512) (k : Fin 4096) :
    broadcastTo S512x4096 (shapeCast S1x4096 b shapeCasts_S4096_S1x4096) broadcasts_S1x4096_S512x4096 (ix2 r k) = b (ix1 k) := by
  rw [broadcastTo_1b_ab_apply, shapeCast_a_1a_apply]

/-- A per-row quantity laid along its row. -/
theorem column_apply (v : FVec Ideal S512 .f32) (r : Fin 512) (k : Fin 4096) :
    broadcastTo S512x4096 (shapeCast S512x1 v shapeCasts_S512_S512x1) broadcasts_S512x1_S512x4096 (ix2 r k) = v (ix1 r) := by
  rw [Cert.LibColumnReads.broadcastTo_a1_ab_apply, Cert.LibColumnReads.shapeCast_a_a1_apply]

theorem exp_apply {s : Shape} {φ : FTy} (v : FVec Ideal s φ) (i : s.Idx) : exp v i = Ideal.exp (v i) := rfl

/-- The row softmax of a block of scores, as the kernel forms it. -/
theorem softmax_apply (s : FVec Ideal S512x4096 .f32) (r : Fin 512) (k : Fin 4096) :
    divf (exp (subf s (broadcastTo S512x4096 (shapeCast S512x1 (multiReduction .maximumf [1] S512 s 0xFF800000#32 reduces_S512x4096_S512 (.inl rfl) rfl) shapeCasts_S512_S512x1) broadcasts_S512x1_S512x4096)))
        (broadcastTo S512x4096 (shapeCast S512x1 (multiReduction .add [1] S512 (exp (subf s (broadcastTo S512x4096 (shapeCast S512x1 (multiReduction .maximumf [1] S512 s 0xFF800000#32 reduces_S512x4096_S512 (.inl rfl) rfl) shapeCasts_S512_S512x1) broadcasts_S512x1_S512x4096))) 0x00000000#32 reduces_S512x4096_S512 (.inl rfl) rfl) shapeCasts_S512_S512x1) broadcasts_S512x1_S512x4096)
        (ix2 r k)
      = softmaxRow (fun k' => s (ix2 r k')) k := by
  have hmax : ∀ k' : Fin 4096, broadcastTo S512x4096 (shapeCast S512x1 (multiReduction (F := Ideal) .maximumf [1] S512 s 0xFF800000#32 reduces_S512x4096_S512 (.inl rfl) rfl) shapeCasts_S512_S512x1) broadcasts_S512x1_S512x4096 (ix2 r k')
      = rowMax (fun k' => s (ix2 r k')) := fun k' => by
    rw [column_apply]
    exact Cert.LibRowReads.rowMax_apply (a := 512) (b := 4096) s _ _ _ _ r
  rw [divf_apply, exp_apply, subf_apply, hmax, column_apply]
  unfold softmaxRow
  refine congrArg (Ideal.div _) ?_
  refine (Cert.LibRowReads.rowSum_apply (a := 512) (b := 4096) _ _ _ _ _ r).trans ?_
  exact Finset.sum_congr rfl fun k' _ => by rw [exp_apply, subf_apply, hmax]

/-- The finishing payload: the block's own contents plus the two row softmaxes of the biased accumulators. -/
theorem pay6_apply (a1 : Vec Ideal S512x4096 .f32) (x3 : Vec Ideal S4096 .f32) (a2 : Vec Ideal S512x4096 .f32)
    (x4 : Vec Ideal S4096 .f32) (z : Vec Ideal S512x4096 .f32) (r : Fin 512) (k : Fin 4096) :
    k0_pay6 (F := Ideal) a1 x3 a2 x4 z (ix2 r k)
      = (z (ix2 r k) + softmaxRow (fun k' => a1 (ix2 r k') + x3 (ix1 k')) k) + softmaxRow (fun k' => a2 (ix2 r k') + x4 (ix1 k')) k := by
  unfold k0_pay6; dsimp only
  rw [addf_apply, addf_apply, shapeCast_self, softmax_apply, softmax_apply]
  refine congrArg₂ (· + ·) (congrArg (z (ix2 r k) + ·) (congrArg (softmaxRow · k) (funext fun k' => ?_)))
    (congrArg (softmaxRow · k) (funext fun k' => ?_))
  · exact congrArg (a1 (ix2 r k') + ·) (bias_apply x3 r k')
  · exact congrArg (a2 (ix2 r k') + ·) (bias_apply x4 r k')

end Cert.KernelIdeal.PayIdeal

end
-- ==== Proof.LibRelArr.lean ====
/-
  Relational proof data: the final array from its write-backs.

  With relational proof data an output array is known after the run only through `RDat.ArrAt`: its entry contents
  overwritten, in point order, at each written-back block by the moved part of SOME contents the body may have left
  there.  If at every write-back every such contents is the block of ONE whole-array function `G`, then any final
  contents agrees with `G` on every index that some written-back block covers — later write-backs over an index
  write the same value, earlier ones are overwritten — and is `G` when the written-back blocks cover the array.
-/
import Idealize.ShloMosaic.Lib.Pipeline.Cells
import Idealize.ShloMosaic.Lib.Pipeline.Value

noncomputable section

namespace Idealize.ShloMosaic.Pipeline

open Idealize.SL Idealize.SL.RA Idealize.SL.BI Idealize.SL.Sem

variable {nD : Nat} {τ : Topo} {sig : RefSig} {Val : EltTy → Type}
variable {Ix : Type} [DecidableEq Ix] {Name : Type} [DecidableEq Name] {U : Type} [URA U] {Lvl : Type}
variable {Λ₀ : SL.Sem.Labels} {cfg : Cfg sig Λ₀} {c : Dev nD} (rd : RDat τ Val Ix Name U Lvl cfg c)

/-- One step of `ArrAt`, unfolded at a point of the grid. -/
theorem RDat.ArrAt_succ_of_lt (w : Fin cfg.W) (n : Nat) (h : n < cfg.N) :
    rd.ArrAt w (n + 1) = if (cfg.win w).flush ⟨n, h⟩ then rd.ArrStep w ⟨n, h⟩ (rd.ArrAt w n) else rd.ArrAt w n := by
  show (if h : n < cfg.N then _ else rd.ArrAt w n) = _
  rw [dif_pos h]

/-- Past the grid nothing is written back. -/
theorem RDat.ArrAt_succ_of_not_lt (w : Fin cfg.W) (n : Nat) (h : ¬n < cfg.N) : rd.ArrAt w (n + 1) = rd.ArrAt w n := by
  show (if h : n < cfg.N then _ else rd.ArrAt w n) = _
  rw [dif_neg h]

/-- An index in a block written back below `n` reads `G` in any contents the array may hold after the write-backs
    below `n`, when every write-back moves a block of `G`. -/
theorem RDat.ArrAt_apply_of_mem (w : Fin cfg.W) (G : Buf Val ((cfg.win w).arr.view.loc (c.tc : Thread nD τ)))
    (hG : ∀ t, (cfg.win w).flush t = true → ∀ X, rd.Leaves w t X →
      (cfg.win w).cut (cfg.grid.coords t) X = ((cfg.win w).blk t).view.read Val G) :
    ∀ (n : Nat) (t : Fin cfg.N) (i : ((cfg.win w).arr.view.loc (c.tc : Thread nD τ)).2.ty.Idx)
      (F : Buf Val ((cfg.win w).arr.view.loc (c.tc : Thread nD τ))),
      t.val < n → (cfg.win w).flush t = true → i ∈ ((cfg.win w).blk t).view.set → rd.ArrAt w n F → F i = G i
  | 0, _, _, _, ht, _, _, _ => absurd ht (Nat.not_lt_zero _)
  | n + 1, t, i, F, ht, hf, hi, hF => by
    by_cases hn : n < cfg.N
    swap
    · rw [rd.ArrAt_succ_of_not_lt w n hn] at hF
      exact RDat.ArrAt_apply_of_mem w G hG n t i F (by have := t.isLt; omega) hf hi hF
    rw [rd.ArrAt_succ_of_lt w n hn] at hF
    by_cases hfn : (cfg.win w).flush ⟨n, hn⟩ = true
    · rw [if_pos hfn] at hF
      obtain ⟨G₀, X, hG₀, hX, rfl⟩ := hF
      rw [hG _ hfn X hX, View.write_read_eq_piecewise]
      by_cases hin : i ∈ ((cfg.win w).blk ⟨n, hn⟩).view.setOn Finset.univ
      · rw [Finset.piecewise_eq_of_mem _ _ _ hin]
      · rw [Finset.piecewise_eq_of_notMem _ _ _ hin]
        have htn : t.val ≠ n := fun e => hin (by rw [View.setOn_univ]; have : t = ⟨n, hn⟩ := Fin.ext e; exact this ▸ hi)
        exact RDat.ArrAt_apply_of_mem w G hG n t i G₀ (by omega) hf hi hG₀
    · rw [if_neg hfn] at hF
      have htn : t.val ≠ n := fun e => hfn (by have : t = ⟨n, hn⟩ := Fin.ext e; exact this ▸ hf)
      exact RDat.ArrAt_apply_of_mem w G hG n t i F (by omega) hf hi hF

/-- The whole array: when the written-back blocks cover it, any final contents is `G`. -/
theorem RDat.ArrAt_eq_of_cover (w : Fin cfg.W) (G : Buf Val ((cfg.win w).arr.view.loc (c.tc : Thread nD τ)))
    (hG : ∀ t, (cfg.win w).flush t = true → ∀ X, rd.Leaves w t X →
      (cfg.win w).cut (cfg.grid.coords t) X = ((cfg.win w).blk t).view.read Val G)
    (hcover : ∀ i : ((cfg.win w).arr.view.loc (c.tc : Thread nD τ)).2.ty.Idx,
      ∃ t : Fin cfg.N, (cfg.win w).flush t = true ∧ i ∈ ((cfg.win w).blk t).view.set)
    (F : Buf Val ((cfg.win w).arr.view.loc (c.tc : Thread nD τ))) (hF : rd.ArrAt w cfg.N F) : F = G :=
  funext fun i => by
    obtain ⟨t, hf, hi⟩ := hcover i
    exact rd.ArrAt_apply_of_mem w G hG cfg.N t i F t.isLt hf hi hF

end Idealize.ShloMosaic.Pipeline

end
-- ==== Proof.LibRangeDigits.lean ====
/-
  Sums over an initial segment of the naturals, split by digits.

  A number below `a * b` is `i * b + j` for exactly one pair `i < a`, `j < b`; so a sum over the numbers
  below `a * b` is the sum over `i` of the sums over `j`. Applied four times this writes a sum over the numbers
  below `S * (I * (G * (A * B)))` as a five-fold sum over mixed-radix digits, and since the sums are finite and
  the monoid commutative the five sums may be taken in any order. Nothing here needs more than a commutative
  additive monoid: no subtraction, no cancellation, no finiteness of the summands.
-/
import Mathlib

namespace RangeDigits

open Finset

variable {M : Type*} [AddCommMonoid M]

/-- A sum over the numbers below `a * b`, read as `a` consecutive runs of length `b`. -/
theorem sum_range_mul (a b : ℕ) (f : ℕ → M) :
    ∑ n ∈ range (a * b), f n = ∑ i ∈ range a, ∑ j ∈ range b, f (i * b + j) := by
  induction a with
  | zero => simp
  | succ a ih =>
    rw [Nat.succ_mul, sum_range_add, ih, sum_range_succ]

/-- A sum over `Fin n` of a function of the value is the sum over the numbers below `n`. -/
theorem sum_fin_eq_range (n : ℕ) (f : ℕ → M) :
    ∑ k : Fin n, f k.val = ∑ k ∈ range n, f k :=
  Fin.sum_univ_eq_sum_range f n

/-- Five digits `s, i, g, a, b` with radices `S, I, G, A, B`: the sum over the numbers below the product of the
    radices is the sum over the digits, here taken in the order `s, a, b, i, g`. -/
theorem sum_range_digits5 (S I G A B : ℕ) (f : ℕ → M) :
    ∑ n ∈ range (S * (I * (G * (A * B)))), f n
      = ∑ s ∈ range S, ∑ a ∈ range A, ∑ b ∈ range B, ∑ i ∈ range I, ∑ g ∈ range G,
          f (s * (I * (G * (A * B))) + (i * (G * (A * B)) + (g * (A * B) + (a * B + b)))) := by
  rw [sum_range_mul]
  refine sum_congr rfl fun s _ => ?_
  rw [sum_range_mul]
  have h : ∀ i, ∑ j ∈ range (G * (A * B)), f (s * (I * (G * (A * B))) + (i * (G * (A * B)) + j))
      = ∑ g ∈ range G, ∑ a ∈ range A, ∑ b ∈ range B,
          f (s * (I * (G * (A * B))) + (i * (G * (A * B)) + (g * (A * B) + (a * B + b)))) := by
    intro i
    rw [sum_range_mul]
    refine sum_congr rfl fun g _ => ?_
    rw [sum_range_mul]
  rw [sum_congr rfl fun i _ => h i]
  -- the digits in the order i, g, a, b; move a and b outward
  refine (sum_congr rfl fun i _ => sum_comm).trans ?_
  refine sum_comm.trans ?_
  refine sum_congr rfl fun a _ => ?_
  refine (sum_congr rfl fun i _ => sum_comm).trans ?_
  exact sum_comm

end RangeDigits
-- ==== Proof.ValueAcc.lean ====
/-
  What the kernel's output array holds after the run, at the ideal values: the layer.

  Point t = 8 i + j of the grid works on rows [512 i, 512 i + 512) of f and on the contracted columns
  [512 j, 512 j + 512).  Three facts, each by induction on the point:
   * after point t each accumulator holds, at (r, k), the sum over the chunks j' <= j of the chunk's products — a
     partial sum of the row's contraction, complete at j = 7;
   * whatever the output's buffer is found holding at point t, its columns below 512 j are the row tile of f: each
     point before, back to j = 0, overwrote one more column chunk with f and touched nothing else;
   * so at j = 7 the buffer, with its last chunk overwritten, is the whole row tile of f, and the finishing payload
     leaves the layer's rows: f plus the two row softmaxes of the completed scores plus bias.
  The output's blocks are written back at j = 7 only and tile the array, so the array ends at the layer.
-/
import proofs.«140654_j38603166056700_2_alg».proof.Proof.PointOpen
import proofs.«140654_j38603166056700_2_alg».proof.Proof.PayIdeal
import proofs.«140654_j38603166056700_2_alg».proof.Proof.LibRelArr
import proofs.«140654_j38603166056700_2_alg».proof.Proof.LibRangeDigits
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

open Idealize.ShloMosaic.ValueIdx Cert.RowTile Cert.KernelIdeal.PayIdeal

variable (m : (ℓ : Loc nD τ sig) → Buf (Elt Ideal) ℓ)

/-! ## The grid: which blocks point t works on -/

theorem gridFacts : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val % 8 ∧ win0_2.index t (1 : Fin 2) = 0
    ∧ win0_3.index t (0 : Fin 1) = 0 ∧ win0_4.index t (0 : Fin 1) = 0
    ∧ win0_5.index t (0 : Fin 2) = t.val / 8 ∧ win0_5.index t (1 : Fin 2) = 0
    ∧ k0_off1 (grid0.coords t) (0 : Fin 2) = 0 ∧ k0_off1 (grid0.coords t) (1 : Fin 2) = 512 * (t.val % 8) :=
  (by decide +kernel : ∀ t : Fin grid0.N, _)

/-- The output's buffer is never fetched into. -/
theorem fetch5 : ∀ t : Fin cfg0.N, (cfg0.win 5).fetch t = false :=
  (by decide +kernel : ∀ t : Fin grid0.N, win0_5.fetch t = false)

theorem tlt (t : Fin cfg0.N) : t.val < 128 := lt_of_lt_of_eq t.isLt N_0

/-! ## The arrays as the region finds them, as arrays of extended reals -/

abbrev arrF (c : Dev nD) : S8192x4096.Idx → EReal := V m c main_arg0
abbrev arrW1 (c : Dev nD) : S4096x4096.Idx → EReal := V m c main_v1
abbrev arrB1 (c : Dev nD) : S4096.Idx → EReal := V m c main_arg2
abbrev arrW2 (c : Dev nD) : S4096x4096.Idx → EReal := V m c main_v3
abbrev arrB2 (c : Dev nD) : S4096.Idx → EReal := V m c main_arg4

/-- The point's blocks, as arrays of extended reals. -/
abbrev bF (c : Dev nD) (t : Fin cfg0.N) : S512x512.Idx → EReal := iblk m c 0 t
abbrev bW1 (c : Dev nD) (t : Fin cfg0.N) : S512x4096.Idx → EReal := iblk m c 1 t
abbrev bW2 (c : Dev nD) (t : Fin cfg0.N) : S512x4096.Idx → EReal := iblk m c 2 t
abbrev bB1 (c : Dev nD) (t : Fin cfg0.N) : S4096.Idx → EReal := iblk m c 3 t
abbrev bB2 (c : Dev nD) (t : Fin cfg0.N) : S4096.Idx → EReal := iblk m c 4 t

/-! ## The blocks, read off the arrays -/

theorem blkF (c : Dev nD) (t : Fin cfg0.N) (j : S512x512.Idx) (i : S8192x4096.Idx)
    (h0 : (i 0).val = 512 * (t.val / 8) + (j 0).val) (h1 : (i 1).val = (t.val % 8) * 512 + (j 1).val) :
    bF m c t j = arrF m c i := by
  obtain ⟨e0, e1, -⟩ := gridFacts t
  show V m c main_arg0 (((cfg0.win 0).blk t).view.emb j) = V m c main_arg0 i
  refine congrArg _ (funext fun a => Fin.ext ?_)
  match a with
  | ⟨0, _⟩ => show win0_0.index t (0 : Fin 2) * 512 + 1 * (j 0).val = (i 0).val; omega
  | ⟨1, _⟩ => show win0_0.index t (1 : Fin 2) * 512 + 1 * (j 1).val = (i 1).val; omega

theorem blkW1 (c : Dev nD) (t : Fin cfg0.N) (e : Fin 512) (k : Fin 4096) (i : S4096x4096.Idx)
    (h0 : (i 0).val = (t.val % 8) * 512 + e.val) (h1 : (i 1).val = k.val) :
    bW1 m c t (ix2 e k) = arrW1 m c i := by
  obtain ⟨-, -, e0, e1, -⟩ := gridFacts t
  show V m c main_v1 (((cfg0.win 1).blk t).view.emb (ix2 e k)) = V m c main_v1 i
  refine congrArg _ (funext fun a => Fin.ext ?_)
  match a with
  | ⟨0, _⟩ => show win0_1.index t (0 : Fin 2) * 512 + 1 * e.val = (i 0).val; omega
  | ⟨1, _⟩ => show win0_1.index t (1 : Fin 2) * 4096 + 1 * k.val = (i 1).val; omega

theorem blkW2 (c : Dev nD) (t : Fin cfg0.N) (e : Fin 512) (k : Fin 4096) (i : S4096x4096.Idx)
    (h0 : (i 0).val = (t.val % 8) * 512 + e.val) (h1 : (i 1).val = k.val) :
    bW2 m c t (ix2 e k) = arrW2 m c i := by
  obtain ⟨-, -, -, -, e0, e1, -⟩ := gridFacts t
  show V m c main_v3 (((cfg0.win 2).blk t).view.emb (ix2 e k)) = V m c main_v3 i
  refine congrArg _ (funext fun a => Fin.ext ?_)
  match a with
  | ⟨0, _⟩ => show win0_2.index t (0 : Fin 2) * 512 + 1 * e.val = (i 0).val; omega
  | ⟨1, _⟩ => show win0_2.index t (1 : Fin 2) * 4096 + 1 * k.val = (i 1).val; omega

theorem blkB1 (c : Dev nD) (t : Fin cfg0.N) (k : Fin 4096) : bB1 m c t (ix1 k) = arrB1 m c (ix1 k) := by
  obtain ⟨-, -, -, -, -, -, e0, -⟩ := gridFacts t
  show V m c main_arg2 (((cfg0.win 3).blk t).view.emb (ix1 k)) = V m c main_arg2 (ix1 k)
  refine congrArg _ (funext fun a => Fin.ext ?_)
  match a with
  | ⟨0, _⟩ => show win0_3.index t (0 : Fin 1) * 4096 + 1 * k.val = k.val; omega

theorem blkB2 (c : Dev nD) (t : Fin cfg0.N) (k : Fin 4096) : bB2 m c t (ix1 k) = arrB2 m c (ix1 k) := by
  obtain ⟨-, -, -, -, -, -, -, e0, -⟩ := gridFacts t
  show V m c main_arg4 (((cfg0.win 4).blk t).view.emb (ix1 k)) = V m c main_arg4 (ix1 k)
  refine congrArg _ (funext fun a => Fin.ext ?_)
  match a with
  | ⟨0, _⟩ => show win0_4.index t (0 : Fin 1) * 4096 + 1 * k.val = k.val; omega

/-! ## The arrays over the naturals (zero outside their extents), so that sums may be split by chunks -/

def fN (c : Dev nD) (n d : ℕ) : EReal :=
  if h : n < 8192 ∧ d < 4096 then arrF m c (ix2 (⟨n, h.1⟩ : Fin 8192) (⟨d, h.2⟩ : Fin 4096)) else 0
def w1N (c : Dev nD) (d k : ℕ) : EReal :=
  if h : d < 4096 ∧ k < 4096 then arrW1 m c (ix2 (⟨d, h.1⟩ : Fin 4096) (⟨k, h.2⟩ : Fin 4096)) else 0
def w2N (c : Dev nD) (d k : ℕ) : EReal :=
  if h : d < 4096 ∧ k < 4096 then arrW2 m c (ix2 (⟨d, h.1⟩ : Fin 4096) (⟨k, h.2⟩ : Fin 4096)) else 0

/-- One chunk's products at (r, k), in row tile i and chunk j. -/
theorem chunk1 (c : Dev nD) (t : Fin cfg0.N) (r : Fin 512) (k : Fin 4096) (i j : ℕ) (hi : t.val / 8 = i) (hj : t.val % 8 = j) :
    ∑ e : Fin 512, bF m c t (ix2 r e) * bW1 m c t (ix2 e k)
      = ∑ e ∈ Finset.range 512, fN m c (512 * i + r.val) (j * 512 + e) * w1N m c (j * 512 + e) k.val := by
  subst hi hj
  have ht := tlt t
  rw [← Fin.sum_univ_eq_sum_range (fun e => fN m c (512 * (t.val / 8) + r.val) (t.val % 8 * 512 + e) * w1N m c (t.val % 8 * 512 + e) k.val) 512]
  refine Finset.sum_congr rfl fun e _ => ?_
  have hr := r.isLt; have he := e.isLt; have hk := k.isLt
  have h1 : 512 * (t.val / 8) + r.val < 8192 := by omega
  have h2 : t.val % 8 * 512 + e.val < 4096 := by omega
  rw [show fN m c (512 * (t.val / 8) + r.val) (t.val % 8 * 512 + e.val) = _ from dif_pos ⟨h1, h2⟩,
    show w1N m c (t.val % 8 * 512 + e.val) k.val = _ from dif_pos ⟨h2, hk⟩]
  rw [blkF m c t (ix2 r e) (ix2 ⟨_, h1⟩ ⟨_, h2⟩) rfl rfl, blkW1 m c t e k (ix2 ⟨_, h2⟩ ⟨_, hk⟩) rfl rfl]

theorem chunk2 (c : Dev nD) (t : Fin cfg0.N) (r : Fin 512) (k : Fin 4096) (i j : ℕ) (hi : t.val / 8 = i) (hj : t.val % 8 = j) :
    ∑ e : Fin 512, bF m c t (ix2 r e) * bW2 m c t (ix2 e k)
      = ∑ e ∈ Finset.range 512, fN m c (512 * i + r.val) (j * 512 + e) * w2N m c (j * 512 + e) k.val := by
  subst hi hj
  have ht := tlt t
  rw [← Fin.sum_univ_eq_sum_range (fun e => fN m c (512 * (t.val / 8) + r.val) (t.val % 8 * 512 + e) * w2N m c (t.val % 8 * 512 + e) k.val) 512]
  refine Finset.sum_congr rfl fun e _ => ?_
  have hr := r.isLt; have he := e.isLt; have hk := k.isLt
  have h1 : 512 * (t.val / 8) + r.val < 8192 := by omega
  have h2 : t.val % 8 * 512 + e.val < 4096 := by omega
  rw [show fN m c (512 * (t.val / 8) + r.val) (t.val % 8 * 512 + e.val) = _ from dif_pos ⟨h1, h2⟩,
    show w2N m c (t.val % 8 * 512 + e.val) k.val = _ from dif_pos ⟨h2, hk⟩]
  rw [blkF m c t (ix2 r e) (ix2 ⟨_, h1⟩ ⟨_, h2⟩) rfl rfl, blkW2 m c t e k (ix2 ⟨_, h2⟩ ⟨_, hk⟩) rfl rfl]

/-! ## The accumulators are partial sums over the chunks -/

/-- The products of the first J chunks of row 512 i + r against column k of the first weights. -/
def part1 (c : Dev nD) (i J : ℕ) (r : Fin 512) (k : Fin 4096) : EReal :=
  ∑ j ∈ Finset.range J, ∑ e ∈ Finset.range 512, fN m c (512 * i + r.val) (j * 512 + e) * w1N m c (j * 512 + e) k.val
def part2 (c : Dev nD) (i J : ℕ) (r : Fin 512) (k : Fin 4096) : EReal :=
  ∑ j ∈ Finset.range J, ∑ e ∈ Finset.range 512, fN m c (512 * i + r.val) (j * 512 + e) * w2N m c (j * 512 + e) k.val

theorem part1_succ (c : Dev nD) (i J : ℕ) (r : Fin 512) (k : Fin 4096) :
    part1 m c i (J + 1) r k = part1 m c i J r k + ∑ e ∈ Finset.range 512, fN m c (512 * i + r.val) (J * 512 + e) * w1N m c (J * 512 + e) k.val := by
  unfold part1; exact Finset.sum_range_succ _ J

theorem part2_succ (c : Dev nD) (i J : ℕ) (r : Fin 512) (k : Fin 4096) :
    part2 m c i (J + 1) r k = part2 m c i J r k + ∑ e ∈ Finset.range 512, fN m c (512 * i + r.val) (J * 512 + e) * w2N m c (J * 512 + e) k.val := by
  unfold part2; exact Finset.sum_range_succ _ J

theorem acc_inv (c : Dev nD) : ∀ (n : ℕ) (hn : n < cfg0.N) (r : Fin 512) (k : Fin 4096),
    (accAt m c n hn).1 (ix2 r k) = part1 m c (n / 8) (n % 8 + 1) r k ∧ (accAt m c n hn).2 (ix2 r k) = part2 m c (n / 8) (n % 8 + 1) r k := by
  intro n
  induction n with
  | zero =>
    intro hn r k
    have h := acc_first m c ⟨0, hn⟩ (Nat.zero_mod _)
    have h' : accAt m c 0 hn = _ := h
    rw [h']
    dsimp only
    rw [pay4_apply, pay1_apply, zero_add, pay5_apply, pay2_apply, zero_add]
    unfold part1 part2
    rw [Finset.sum_range_one, Finset.sum_range_one]
    exact ⟨chunk1 m c ⟨0, hn⟩ r k 0 0 (Nat.zero_div 8) (Nat.zero_mod 8), chunk2 m c ⟨0, hn⟩ r k 0 0 (Nat.zero_div 8) (Nat.zero_mod 8)⟩
  | succ n ih =>
    intro hn r k
    by_cases h0 : (n + 1) % 8 = 0
    · have h := acc_first m c ⟨n + 1, hn⟩ h0
      have h' : accAt m c (n + 1) hn = _ := h
      rw [h']
      dsimp only
      rw [pay4_apply, pay1_apply, zero_add, pay5_apply, pay2_apply, zero_add, h0]
      unfold part1 part2
      rw [Finset.sum_range_one, Finset.sum_range_one]
      exact ⟨chunk1 m c ⟨n + 1, hn⟩ r k ((n + 1) / 8) 0 rfl h0, chunk2 m c ⟨n + 1, hn⟩ r k ((n + 1) / 8) 0 rfl h0⟩
    · have h := acc_later m c ⟨n + 1, hn⟩ h0
      have h' : accAt m c (n + 1) hn = (k0_pay4 (iblk m c 0 ⟨n + 1, hn⟩) (iblk m c 1 ⟨n + 1, hn⟩) (accAt m c n (Nat.lt_of_succ_lt hn)).1,
          k0_pay5 (iblk m c 0 ⟨n + 1, hn⟩) (iblk m c 2 ⟨n + 1, hn⟩) (accAt m c n (Nat.lt_of_succ_lt hn)).2) := h
      rw [h']
      dsimp only
      obtain ⟨ih1, ih2⟩ := ih (Nat.lt_of_succ_lt hn) r k
      rw [pay4_apply, pay5_apply, ih1, ih2]
      have e1 : (n + 1) / 8 = n / 8 := by omega
      have e2 : (n + 1) % 8 + 1 = (n % 8 + 1) + 1 := by omega
      rw [e1, e2, part1_succ m c (n / 8) (n % 8 + 1) r k, part2_succ m c (n / 8) (n % 8 + 1) r k]
      have e3 : (n + 1) % 8 = n % 8 + 1 := by omega
      exact ⟨congrArg (part1 m c (n / 8) (n % 8 + 1) r k + ·) (chunk1 m c ⟨n + 1, hn⟩ r k (n / 8) (n % 8 + 1) e1 e3),
        congrArg (part2 m c (n / 8) (n % 8 + 1) r k + ·) (chunk2 m c ⟨n + 1, hn⟩ r k (n / 8) (n % 8 + 1) e1 e3)⟩

/-- All eight chunks together are the row's whole contraction. -/
theorem part1_full (c : Dev nD) (i : ℕ) (hi : i < 16) (r : Fin 512) (k : Fin 4096) :
    part1 m c i 8 r k = ∑ d : Fin 4096, arrF m c (ix2 (⟨512 * i + r.val, by have := r.isLt; omega⟩ : Fin 8192) d) * arrW1 m c (ix2 d k) := by
  unfold part1
  rw [← RangeDigits.sum_range_mul 8 512 (fun d => fN m c (512 * i + r.val) d * w1N m c d k.val)]
  rw [show (8 * 512 : ℕ) = 4096 from rfl, ← Fin.sum_univ_eq_sum_range (fun d => fN m c (512 * i + r.val) d * w1N m c d k.val) 4096]
  refine Finset.sum_congr rfl fun d _ => ?_
  have hr := r.isLt
  rw [show fN m c (512 * i + r.val) d.val = _ from dif_pos ⟨by omega, d.isLt⟩, show w1N m c d.val k.val = _ from dif_pos ⟨d.isLt, k.isLt⟩]

theorem part2_full (c : Dev nD) (i : ℕ) (hi : i < 16) (r : Fin 512) (k : Fin 4096) :
    part2 m c i 8 r k = ∑ d : Fin 4096, arrF m c (ix2 (⟨512 * i + r.val, by have := r.isLt; omega⟩ : Fin 8192) d) * arrW2 m c (ix2 d k) := by
  unfold part2
  rw [← RangeDigits.sum_range_mul 8 512 (fun d => fN m c (512 * i + r.val) d * w2N m c d k.val)]
  rw [show (8 * 512 : ℕ) = 4096 from rfl, ← Fin.sum_univ_eq_sum_range (fun d => fN m c (512 * i + r.val) d * w2N m c d k.val) 4096]
  refine Finset.sum_congr rfl fun d _ => ?_
  have hr := r.isLt
  rw [show fN m c (512 * i + r.val) d.val = _ from dif_pos ⟨by omega, d.isLt⟩, show w2N m c d.val k.val = _ from dif_pos ⟨d.isLt, k.isLt⟩]

end Cert.KernelIdeal.Hand

end
-- ==== Proof.ValueOut.lean ====
/-
  The output buffer across a row tile, what the last chunk leaves, and the array after the run.
-/
import proofs.«140654_j38603166056700_2_alg».proof.Proof.ValueAcc
import Idealize.ShloMosaic.Lib.StableHlo.Run
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

open Idealize.ShloMosaic.ValueIdx Cert.RowTile Cert.KernelIdeal.PayIdeal

variable (m : (ℓ : Loc nD τ sig) → Buf (Elt Ideal) ℓ)

/-- Row r of point t's row tile, as a row of the array. -/
def rowOf (t : Fin cfg0.N) (r : Fin 512) : Fin 8192 := ⟨512 * (t.val / 8) + r.val, by have := tlt t; have := r.isLt; omega⟩

theorem rowOf_congr (t t' : Fin cfg0.N) (h : t'.val / 8 = t.val / 8) (r : Fin 512) : rowOf t' r = rowOf t r :=
  Fin.ext (by show 512 * (t'.val / 8) + r.val = 512 * (t.val / 8) + r.val; rw [h])

/-! ## One chunk overwritten -/

theorem putChunk_in (c : Dev nD) (t : Fin cfg0.N) (Y : Vec Ideal S512x4096 .f32) (r : Fin 512) (q : Fin 4096)
    (hq : 512 * (t.val % 8) ≤ q.val) (hq' : q.val < 512 * (t.val % 8) + 512) :
    (putChunk (grid0.coords t) (mo t) (hmo t) (iblk m c 0 t) Y (ix2 r q) : EReal) = arrF m c (ix2 (rowOf t r) q) := by
  obtain ⟨-, -, -, -, -, -, -, -, -, -, o0, o1⟩ := gridFacts t
  rw [putChunk_apply]
  have h : ∀ a, k0_off1 (grid0.coords t) a ≤ ((ix2 r q : S512x4096.Idx) a).val ∧ ((ix2 r q : S512x4096.Idx) a).val < k0_off1 (grid0.coords t) a + S512x512.size a := by
    intro a
    match a with
    | ⟨0, _⟩ => show k0_off1 (grid0.coords t) (0 : Fin 2) ≤ r.val ∧ r.val < k0_off1 (grid0.coords t) (0 : Fin 2) + 512; have := r.isLt; omega
    | ⟨1, _⟩ => show k0_off1 (grid0.coords t) (1 : Fin 2) ≤ q.val ∧ q.val < k0_off1 (grid0.coords t) (1 : Fin 2) + 512; omega
  rw [dif_pos h]
  refine blkF m c t _ _ ?_ ?_
  · show 512 * (t.val / 8) + r.val = 512 * (t.val / 8) + (r.val - k0_off1 (grid0.coords t) (0 : Fin 2)); omega
  · show q.val = (t.val % 8) * 512 + (q.val - k0_off1 (grid0.coords t) (1 : Fin 2)); omega

theorem putChunk_out (c : Dev nD) (t : Fin cfg0.N) (Y : Vec Ideal S512x4096 .f32) (r : Fin 512) (q : Fin 4096)
    (hq : q.val < 512 * (t.val % 8) ∨ 512 * (t.val % 8) + 512 ≤ q.val) :
    putChunk (grid0.coords t) (mo t) (hmo t) (iblk m c 0 t) Y (ix2 r q) = Y (ix2 r q) := by
  obtain ⟨-, -, -, -, -, -, -, -, -, -, o0, o1⟩ := gridFacts t
  rw [putChunk_apply]
  have h : ¬∀ a, k0_off1 (grid0.coords t) a ≤ ((ix2 r q : S512x4096.Idx) a).val ∧ ((ix2 r q : S512x4096.Idx) a).val < k0_off1 (grid0.coords t) a + S512x512.size a := by
    intro hall
    have h1 : k0_off1 (grid0.coords t) (1 : Fin 2) ≤ q.val ∧ q.val < k0_off1 (grid0.coords t) (1 : Fin 2) + 512 := hall 1
    omega
  rw [dif_neg h]

/-! ## What the output's buffer is found holding -/

theorem found_prefix (c : Dev nD) : ∀ (n : ℕ) (t : Fin cfg0.N), t.val = n → ∀ Y, (rdat m c).Finds 5 t Y →
    ∀ (r : Fin 512) (q : Fin 4096), q.val < 512 * (t.val % 8) → (Y (ix2 r q) : EReal) = arrF m c (ix2 (rowOf t r) q) := by
  intro n
  induction n using Nat.strong_induction_on with
  | _ n ih =>
    intro t htn Y hY r q hq
    have ht := tlt t
    by_cases ht0 : t.val = 0
    · rw [ht0] at hq; omega
    · have hf := ((rdat m c).finds_of_pos (fetch5 t) ht0 Y).mp hY
      rcases hf with hfl | ⟨Y', hY', hXY⟩
      · have h7 := (flush0_5 _).mp hfl
        have h7' : (t.val - 1) % 8 = 7 := h7
        omega
      · have hXY' : Y = outAt m c ⟨t.val - 1, Nat.lt_of_le_of_lt (Nat.sub_le _ _) t.isLt⟩ Y' := hXY
        by_cases h7 : (t.val - 1) % 8 = 7
        · omega
        · rw [hXY', out_early m c _ h7]
          have hrow : rowOf ⟨t.val - 1, Nat.lt_of_le_of_lt (Nat.sub_le _ _) t.isLt⟩ r = rowOf t r :=
            rowOf_congr t _ (by show (t.val - 1) / 8 = t.val / 8; omega) r
          by_cases hin : 512 * ((t.val - 1) % 8) ≤ q.val
          · rw [putChunk_in m c _ Y' r q hin (by show q.val < 512 * ((t.val - 1) % 8) + 512; omega), hrow]
          · rw [putChunk_out m c _ Y' r q (Or.inl (by show q.val < 512 * ((t.val - 1) % 8); omega)),
              ih (t.val - 1) (by omega) ⟨t.val - 1, Nat.lt_of_le_of_lt (Nat.sub_le _ _) t.isLt⟩ rfl Y' hY' r q
                (by show q.val < 512 * ((t.val - 1) % 8); omega), hrow]

/-! ## What the last chunk leaves -/

theorem leaves_last (c : Dev nD) (t : Fin cfg0.N) (h7 : t.val % 8 = 7) (X) (hX : (rdat m c).Leaves 5 t X) (r : Fin 512) (k : Fin 4096) :
    (X (ix2 r k) : EReal) = layerAt (arrF m c) (arrW1 m c) (arrB1 m c) (arrW2 m c) (arrB2 m c) (rowOf t r) k := by
  obtain ⟨Y, hY, hXY⟩ := hX
  have hXY' : X = outAt m c t Y := hXY
  have ht := tlt t
  rw [hXY', out_last m c t h7, pay6_apply]
  unfold layerAt
  have hz : (putChunk (grid0.coords t) (mo t) (hmo t) (iblk m c 0 t) Y (ix2 r k) : EReal) = arrF m c (ix2 (rowOf t r) k) := by
    by_cases hin : 512 * (t.val % 8) ≤ k.val
    · exact putChunk_in m c t Y r k hin (by have := k.isLt; omega)
    · rw [putChunk_out m c t Y r k (Or.inl (by omega))]
      exact found_prefix m c t.val t rfl Y hY r k (by omega)
  have hs1 : (fun k' : Fin 4096 => (accAt m c t.val t.isLt).1 (ix2 r k') + bB1 m c t (ix1 k')) = scores (arrF m c) (arrW1 m c) (arrB1 m c) (rowOf t r) := by
    funext k'
    rw [(acc_inv m c t.val t.isLt r k').1, h7, part1_full m c (t.val / 8) (by omega) r k', blkB1]
    rfl
  have hs2 : (fun k' : Fin 4096 => (accAt m c t.val t.isLt).2 (ix2 r k') + bB2 m c t (ix1 k')) = scores (arrF m c) (arrW2 m c) (arrB2 m c) (rowOf t r) := by
    funext k'
    rw [(acc_inv m c t.val t.isLt r k').2, h7, part2_full m c (t.val / 8) (by omega) r k', blkB2]
    rfl
  exact congrArg₂ (· + ·) (congrArg₂ (· + ·) hz (congrArg (softmaxRow · k) hs1)) (congrArg (softmaxRow · k) hs2)

/-- What is written back at the end of a row tile is the layer's block. -/
theorem leaves_blk (c : Dev nD) (t : Fin cfg0.N) (hf : (cfg0.win 5).flush t = true) (X) (hX : (rdat m c).Leaves 5 t X) :
    (cfg0.win 5).cut (cfg0.grid.coords t) X = ((cfg0.win 5).blk t).view.read (Elt Ideal) (layer (arrF m c) (arrW1 m c) (arrB1 m c) (arrW2 m c) (arrB2 m c)) := by
  have h7 := (flush0_5 t).mp hf
  obtain ⟨-, -, -, -, -, -, -, -, o50, o51, -⟩ := gridFacts t
  funext y
  obtain ⟨r, k, rfl⟩ : ∃ (r : Fin 512) (k : Fin 4096), y = ix2 r k := ⟨y 0, y 1, eq_ix2 y⟩
  show (X (ix2 r k) : EReal) = layer (arrF m c) (arrW1 m c) (arrB1 m c) (arrW2 m c) (arrB2 m c) (((cfg0.win 5).blk t).view.emb (ix2 r k))
  rw [leaves_last m c t h7 X hX r k]
  unfold layer
  have e0 : (((cfg0.win 5).blk t).view.emb (ix2 r k)) 0 = rowOf t r := Fin.ext (by
    show win0_5.index t (0 : Fin 2) * 512 + 1 * r.val = 512 * (t.val / 8) + r.val; omega)
  have e1 : (((cfg0.win 5).blk t).view.emb (ix2 r k)) 1 = k := Fin.ext (by
    show win0_5.index t (1 : Fin 2) * 4096 + 1 * k.val = k.val; omega)
  rw [e0, e1]

/-! ## The written-back blocks tile the array -/

theorem mem_blk5 (t : Fin cfg0.N) (i : S8192x4096.Idx) :
    i ∈ ((cfg0.win 5).blk t).view.set ↔ ∀ a : Fin 2, win0_5.index t a * S512x4096.size a ≤ (i a).val ∧ (i a).val < win0_5.index t a * S512x4096.size a + S512x4096.size a := by
  show i ∈ ((View.whole main_v4).slice (win0_5.rect t)).set ↔ _
  rw [View.set_slice_whole, Rect.mem_set_unit]
  exact Iff.rfl

theorem cover5 (i : S8192x4096.Idx) : ∃ t : Fin cfg0.N, (cfg0.win 5).flush t = true ∧ i ∈ ((cfg0.win 5).blk t).view.set := by
  have h0 : (i 0).val < 8192 := (i 0).isLt
  have h1 : (i 1).val < 4096 := (i 1).isLt
  have hlt : 8 * ((i 0).val / 512) + 7 < cfg0.N := by rw [show cfg0.N = 128 from N_0]; omega
  refine ⟨⟨8 * ((i 0).val / 512) + 7, hlt⟩, (flush0_5 _).mpr (by show (8 * ((i 0).val / 512) + 7) % 8 = 7; omega), ?_⟩
  obtain ⟨-, -, -, -, -, -, -, -, o50, o51, -⟩ := gridFacts ⟨8 * ((i 0).val / 512) + 7, hlt⟩
  have o50' : win0_5.index ⟨8 * ((i 0).val / 512) + 7, hlt⟩ (0 : Fin 2) = (8 * ((i 0).val / 512) + 7) / 8 := o50
  rw [mem_blk5]
  intro a
  match a with
  | ⟨0, _⟩ =>
    show win0_5.index ⟨8 * ((i 0).val / 512) + 7, hlt⟩ (0 : Fin 2) * 512 ≤ (i 0).val ∧ (i 0).val < win0_5.index ⟨8 * ((i 0).val / 512) + 7, hlt⟩ (0 : Fin 2) * 512 + 512
    omega
  | ⟨1, _⟩ =>
    show win0_5.index ⟨8 * ((i 0).val / 512) + 7, hlt⟩ (1 : Fin 2) * 4096 ≤ (i 1).val ∧ (i 1).val < win0_5.index ⟨8 * ((i 0).val / 512) + 7, hlt⟩ (1 : Fin 2) * 4096 + 4096
    omega

/-- The output array after the run: any contents the proof data allow is the layer of the arrays as the region finds them. -/
theorem final5 (c : Dev nD) (A) (hA : (rdat m c).ArrAt 5 cfg0.N A) : A = layer (arrF m c) (arrW1 m c) (arrB1 m c) (arrW2 m c) (arrB2 m c) :=
  (rdat m c).ArrAt_eq_of_cover 5 _ (fun t hf X hX => leaves_blk m c t hf X hX) cover5 A hA

/-! ## The weights the region reads are the transposed arguments -/

theorem V_w1 (c : Dev nD) : arrW1 m c = transposed (m ((c : Thread nD τ).loc main_arg1)) := by
  have e : (V m c main_v1 : S4096x4096.Idx → EReal)
      = (truncf (F := Ideal) .bf16 (transpose S4096x4096 [1, 0] (m ((c : Thread nD τ).loc main_arg1) : FVec Ideal S4096x4096 .f32)
          transposes_S4096x4096_S4096x4096_1_0) bitsLt_bf16_f32 : FVec Ideal S4096x4096 .bf16) := by
    dsimp only [Gen.V, Gen.hostOps0]; after_results
  funext i
  obtain ⟨d, k, rfl⟩ : ∃ (d : Fin 4096) (k : Fin 4096), i = ix2 d k := ⟨i 0, i 1, eq_ix2 i⟩
  show (V m c main_v1 : S4096x4096.Idx → EReal) (ix2 d k) = _
  rw [e, truncf_apply, transpose_ix2_apply]
  rfl

theorem V_w2 (c : Dev nD) : arrW2 m c = transposed (m ((c : Thread nD τ).loc main_arg3)) := by
  have e : (V m c main_v3 : S4096x4096.Idx → EReal)
      = (truncf (F := Ideal) .bf16 (transpose S4096x4096 [1, 0] (m ((c : Thread nD τ).loc main_arg3) : FVec Ideal S4096x4096 .f32)
          transposes_S4096x4096_S4096x4096_1_0) bitsLt_bf16_f32 : FVec Ideal S4096x4096 .bf16) := by
    dsimp only [Gen.V, Gen.hostOps0]; after_results
  funext i
  obtain ⟨d, k, rfl⟩ : ∃ (d : Fin 4096) (k : Fin 4096), i = ix2 d k := ⟨i 0, i 1, eq_ix2 i⟩
  show (V m c main_v3 : S4096x4096.Idx → EReal) (ix2 d k) = _
  rw [e, truncf_apply, transpose_ix2_apply]
  rfl

/-! ## The run, with the result named -/

/-- Every weakly fair execution of @main terminates without a fault, the result array at the layer of the
    arguments (the weights transposed), the arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v4)
        = layer (m ((c.tc : Thread nD τ).loc main_arg0)) (transposed (m ((c.tc : Thread nD τ).loc main_arg1))) (m ((c.tc : Thread nD τ).loc main_arg2))
            (transposed (m ((c.tc : Thread nD τ).loc main_arg3))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(final5 m c _ ((h c).1 5)).trans (by
        rw [V_w1, V_w2]
        show layer (V m c main_arg0) _ (V m c main_arg2) _ (V m c main_arg4) = _
        rw [V_main_arg0, V_main_arg2, V_main_arg4]),
      (Eq.mp (congrFun ((rdat m c).ArrAt_in 0 rfl _) _) ((h c).1 0)).trans ((rdat_A m c 0).trans (V_main_arg0 m c)),
      ((h c).2 main_arg1 (Pipeline.mem_restRefs_of main_arg1 (by decide) (by decide))).trans (V_main_arg1 m c),
      (Eq.mp (congrFun ((rdat m c).ArrAt_in 3 rfl _) _) ((h c).1 3)).trans ((rdat_A m c 3).trans (V_main_arg2 m c)),
      ((h c).2 main_arg3 (Pipeline.mem_restRefs_of main_arg3 (by decide) (by decide))).trans (V_main_arg3 m c),
      (Eq.mp (congrFun ((rdat m c).ArrAt_in 4 rfl _) _) ((h c).1 4)).trans ((rdat_A m c 4).trans (V_main_arg4 m c))⟩) (run_main m ρ)

end Cert.KernelIdeal.Hand

end
-- ==== Proof.LibLastAxisMax.lean ====
/-
  The host's one-operand reduce with a maximum body over the LAST axis, read at an index given by coordinates, over
  arbitrary extents and at the ideal values:
  • of an `[a, b, n]` array at `(p, q)`, and
  • of an `[a, n]` matrix at `p`:
  the fold of `max` along that axis from the initial value. (The middle-axis form is in LibColumnReads; the kernel-side
  row maximum in LibRowReads.)
-/
import Idealize.ShloMosaic.Lib.ValueIdx
import Idealize.ShloMosaic.PureOps.Ideal.Laws

namespace Cert.LibLastAxisMax

open Idealize.ShloMosaic Idealize.ShloMosaic.ValueIdx

/-- Position `(p, q)` of an `[a, b, n]` array with last coordinate `k` put back is `(p, q, k)`. -/
theorem lift_last3 {a b n : ℕ} (h : (⟨3, ![a, b, n]⟩ : Shape).Reduces [2] (⟨2, ![a, b]⟩ : Shape)) (p : Fin a) (q : Fin b)
    (k : Fin n) : h.lift (ix2 p q) k = ix3 p q k := by
  funext c; apply Fin.ext
  fin_cases c <;> rfl

/-- Row `p` of an `[a, n]` matrix with column `k` put back is `(p, k)`. -/
theorem lift_last2 {a n : ℕ} (h : (⟨2, ![a, n]⟩ : Shape).Reduces [1] (⟨1, ![a]⟩ : Shape)) (p : Fin a) (k : Fin n) :
    h.lift (ix1 p) k = ix2 p k := by
  funext c; apply Fin.ext
  fin_cases c <;> rfl

/-- The host's reduce with a maximum body over the last axis of an `[a, b, n]` array, at `(p, q)`, is the fold of
    `max` over that axis from the initial value. -/
theorem hostLastMax3_apply {φ : FTy} {a b n : ℕ} {u : Shape} (x : FVec Ideal ⟨3, ![a, b, n]⟩ φ) (init : FVec Ideal u φ)
    (h' : (⟨3, ![a, b, n]⟩ : Shape).ReducesTo [2] (⟨2, ![a, b]⟩ : Shape))
    (h : (⟨3, ![a, b, n]⟩ : Shape).Reduces [2] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p q k)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_last3 h p q k))

/-- The host's reduce with a maximum body over the last axis of an `[a, n]` matrix, at `p`, is the fold of `max`
    along row `p` from the initial value. -/
theorem hostLastMax2_apply {φ : FTy} {a n : ℕ} {u : Shape} (x : FVec Ideal ⟨2, ![a, n]⟩ φ) (init : FVec Ideal u φ)
    (h' : (⟨2, ![a, n]⟩ : Shape).ReducesTo [1] (⟨1, ![a]⟩ : Shape))
    (h : (⟨2, ![a, n]⟩ : Shape).Reduces [1] (⟨1, ![a]⟩ : Shape)) (hu : 0 < u.numel) (p : Fin a) :
    Host.reduce (FloatOps.maximumf (F := Ideal) (φ := φ)) x init h' hu (ix1 p)
      = (Finset.univ : Finset (Fin n)).fold max (init (Shape.Idx.first hu)) (fun k => x (ix2 p k)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_last2 h p k))

end Cert.LibLastAxisMax
-- ==== Proof.RefRead.lean ====
/-
  The reference is the layer.

  Read one operation at a time at an index (n, k): the contraction of row n of f with row k of a weight matrix is the
  sum over the shared axis, which is the sum against column k of the transposed weights; the bias is laid along the
  rows; the row maximum is the fold of max from minus infinity (taking the maximum with minus infinity once more
  changes nothing); the exponentials are summed from zero; and the two quotients are added to f in the same order as
  in the layer.
-/
import proofs.«140654_j38603166056700_2_alg».proof.Proof.Gen.ReferenceIdeal.Read
import proofs.«140654_j38603166056700_2_alg».proof.Proof.Spec
import proofs.«140654_j38603166056700_2_alg».proof.Proof.LibLastAxisMax

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.RowTile

/-! ## The first branch: scores against the first weights, their row maximum, the softmax -/

theorem score1 (x0 : S8192x4096.Idx → EReal) (x1 : S4096x4096.Idx → EReal) (x2 : S4096.Idx → EReal) (n : Fin 8192) (k : Fin 4096) :
    val_main_v3 (F := Ideal) x0 x1 x2 (ix2 n k) = scores x0 (transposed x1) x2 n k := by
  rw [val_main_v3_apply, val_main_v0_apply, val_main_v2_apply, val_main_v1_apply]
  unfold scores
  refine congrArg₂ (· + ·) (Finset.sum_congr rfl fun d _ => ?_) ?_
  · have el : lidx_main_v0 (ix2 n k) d = ix2 n d := funext fun a => Fin.ext (by match a with | ⟨0, _⟩ => rfl | ⟨1, _⟩ => rfl)
    have er : ridx_main_v0 (ix2 n k) d = ix2 k d := funext fun a => Fin.ext (by match a with | ⟨0, _⟩ => rfl | ⟨1, _⟩ => rfl)
    rw [el, er]; rfl
  · exact congrArg x2 (funext fun a => Fin.ext (by match a with | ⟨0, _⟩ => rfl))

theorem rmax1 (x0 : S8192x4096.Idx → EReal) (x1 : S4096x4096.Idx → EReal) (x2 : S4096.Idx → EReal) (n : Fin 8192) :
    val_main_v10 (F := Ideal) x0 x1 x2 (ix1 n) = rowMax (scores x0 (transposed x1) x2 n) := by
  rw [val_main_v10_apply, val_main_v9_apply, val_main_cst_0_apply]
  unfold val_main_v8
  have h := Cert.LibLastAxisMax.hostLastMax2_apply (φ := .f32) (a := 8192) (n := 4096) (val_main_v3 (F := Ideal) x0 x1 x2)
    (val_main_cst (F := Ideal)) reducesTo_S8192x4096_S8192_d1 (by decide) h_S_ n
  refine (congrArg (max (Ideal.ofBits .f32 0xFF800000#32)) h).trans ?_
  have hf : (fun k => val_main_v3 (F := Ideal) x0 x1 x2 (ix2 n k)) = scores x0 (transposed x1) x2 n := funext fun k => score1 x0 x1 x2 n k
  rw [hf]
  exact max_eq_right ((Finset.le_fold_max _).2 (Or.inl le_rfl))

theorem sub1 (x0 : S8192x4096.Idx → EReal) (x1 : S4096x4096.Idx → EReal) (x2 : S4096.Idx → EReal) (n : Fin 8192) (k : Fin 4096) :
    val_main_v14 (F := Ideal) x0 x1 x2 (ix2 n k) = Ideal.exp (scores x0 (transposed x1) x2 n k - rowMax (scores x0 (transposed x1) x2 n)) := by
  rw [val_main_v14_apply, val_main_v13_apply, val_main_v12_apply, val_main_v11_apply]
  have e : idx_main_v11 (idx_main_v12 (ix2 n k)) = ix1 n := funext fun a => Fin.ext (by match a with | ⟨0, _⟩ => rfl)
  rw [e, rmax1, score1]
  rfl

theorem soft1 (x0 : S8192x4096.Idx → EReal) (x1 : S4096x4096.Idx → EReal) (x2 : S4096.Idx → EReal) (n : Fin 8192) (k : Fin 4096) :
    val_main_v18 (F := Ideal) x0 x1 x2 (ix2 n k) = softmaxRow (scores x0 (transposed x1) x2 n) k := by
  rw [val_main_v18_apply, val_main_v17_apply, val_main_v16_apply, val_main_v15_apply, sub1]
  have e : idx_main_v16 (idx_main_v17 (ix2 n k)) = ix1 n := funext fun a => Fin.ext (by match a with | ⟨0, _⟩ => rfl)
  rw [e]
  unfold softmaxRow
  refine congrArg (Ideal.div _) ?_
  have hz : (val_main_cst_1 (F := Ideal)) (Shape.Idx.first h_S_) = 0 := Ideal.ofBits_zero_f32
  rw [hz, zero_add]
  refine Finset.sum_congr rfl fun k' _ => ?_
  have e' : idx_main_v15 (ix1 n) k' = ix2 n k' := funext fun a => Fin.ext (by match a with | ⟨0, _⟩ => rfl | ⟨1, _⟩ => rfl)
  rw [e', sub1]

/-! ## The second branch, likewise -/

theorem score2 (x0 : S8192x4096.Idx → EReal) (x1 : S4096x4096.Idx → EReal) (x2 : S4096.Idx → EReal) (n : Fin 8192) (k : Fin 4096) :
    val_main_v7 (F := Ideal) x0 x1 x2 (ix2 n k) = scores x0 (transposed x1) x2 n k := by
  rw [val_main_v7_apply, val_main_v4_apply, val_main_v6_apply, val_main_v5_apply]
  unfold scores
  refine congrArg₂ (· + ·) (Finset.sum_congr rfl fun d _ => ?_) ?_
  · have el : lidx_main_v4 (ix2 n k) d = ix2 n d := funext fun a => Fin.ext (by match a with | ⟨0, _⟩ => rfl | ⟨1, _⟩ => rfl)
    have er : ridx_main_v4 (ix2 n k) d = ix2 k d := funext fun a => Fin.ext (by match a with | ⟨0, _⟩ => rfl | ⟨1, _⟩ => rfl)
    rw [el, er]; rfl
  · exact congrArg x2 (funext fun a => Fin.ext (by match a with | ⟨0, _⟩ => rfl))

theorem rmax2 (x0 : S8192x4096.Idx → EReal) (x1 : S4096x4096.Idx → EReal) (x2 : S4096.Idx → EReal) (n : Fin 8192) :
    val_main_v22 (F := Ideal) x0 x1 x2 (ix1 n) = rowMax (scores x0 (transposed x1) x2 n) := by
  rw [val_main_v22_apply, val_main_v21_apply, val_main_cst_3_apply]
  unfold val_main_v20
  have h := Cert.LibLastAxisMax.hostLastMax2_apply (φ := .f32) (a := 8192) (n := 4096) (val_main_v7 (F := Ideal) x0 x1 x2)
    (val_main_cst_2 (F := Ideal)) reducesTo_S8192x4096_S8192_d1 (by decide) h_S_ n
  refine (congrArg (max (Ideal.ofBits .f32 0xFF800000#32)) h).trans ?_
  have hf : (fun k => val_main_v7 (F := Ideal) x0 x1 x2 (ix2 n k)) = scores x0 (transposed x1) x2 n := funext fun k => score2 x0 x1 x2 n k
  rw [hf]
  exact max_eq_right ((Finset.le_fold_max _).2 (Or.inl le_rfl))

theorem sub2 (x0 : S8192x4096.Idx → EReal) (x1 : S4096x4096.Idx → EReal) (x2 : S4096.Idx → EReal) (n : Fin 8192) (k : Fin 4096) :
    val_main_v26 (F := Ideal) x0 x1 x2 (ix2 n k) = Ideal.exp (scores x0 (transposed x1) x2 n k - rowMax (scores x0 (transposed x1) x2 n)) := by
  rw [val_main_v26_apply, val_main_v25_apply, val_main_v24_apply, val_main_v23_apply]
  have e : idx_main_v23 (idx_main_v24 (ix2 n k)) = ix1 n := funext fun a => Fin.ext (by match a with | ⟨0, _⟩ => rfl)
  rw [e, rmax2, score2]
  rfl

theorem soft2 (x0 : S8192x4096.Idx → EReal) (x1 : S4096x4096.Idx → EReal) (x2 : S4096.Idx → EReal) (n : Fin 8192) (k : Fin 4096) :
    val_main_v30 (F := Ideal) x0 x1 x2 (ix2 n k) = softmaxRow (scores x0 (transposed x1) x2 n) k := by
  rw [val_main_v30_apply, val_main_v29_apply, val_main_v28_apply, val_main_v27_apply, sub2]
  have e : idx_main_v28 (idx_main_v29 (ix2 n k)) = ix1 n := funext fun a => Fin.ext (by match a with | ⟨0, _⟩ => rfl)
  rw [e]
  unfold softmaxRow
  refine congrArg (Ideal.div _) ?_
  have hz : (val_main_cst_4 (F := Ideal)) (Shape.Idx.first h_S_) = 0 := Ideal.ofBits_zero_f32
  rw [hz, zero_add]
  refine Finset.sum_congr rfl fun k' _ => ?_
  have e' : idx_main_v27 (ix1 n) k' = ix2 n k' := funext fun a => Fin.ext (by match a with | ⟨0, _⟩ => rfl | ⟨1, _⟩ => rfl)
  rw [e', sub2]

/-! ## The result -/

/-- The reference's result is the layer of f, the two transposed weight matrices and the two biases. -/
theorem result_eq (x0 : S8192x4096.Idx → EReal) (x1 : S4096x4096.Idx → EReal) (x2 : S4096.Idx → EReal)
    (x3 : S4096x4096.Idx → EReal) (x4 : S4096.Idx → EReal) :
    val_main_v31 (F := Ideal) x0 x1 x2 x3 x4 = layer x0 (transposed x1) x2 (transposed x3) x4 := by
  funext i
  obtain ⟨n, k, rfl⟩ : ∃ (n : Fin 8192) (k : Fin 4096), i = ix2 n k := ⟨i 0, i 1, eq_ix2 i⟩
  rw [val_main_v31_apply, val_main_v19_apply, soft1, soft2]
  rfl

end Cert.ReferenceIdeal.RefValue

end
-- ==== Proof.lean ====
/-
  The certificate: a row-tiled two-branch linear layer with softmax and residual against its jnp reference.

  The kernel walks a 16 x 8 grid: 16 row tiles of 512 rows, and for each the 8 chunks of 512 contracted columns.
  At every point it overwrites one column chunk of the resident output block with the chunk of f and adds the
  chunk's two products (f against each transposed weight matrix) into two accumulators; at the last chunk it adds the
  biases, forms both row softmaxes and adds them to the output block, which by then holds the row tile of f.
  The reference computes f + softmax(f W1^T + b1) + softmax(f W2^T + b2) in one piece.

  Over the extended reals both are the function `Cert.RowTile.layer` of the arguments: a change of float format is
  the identity; eight chunk sums added in turn from zero are the whole contraction, because addition of extended
  reals is associative and commutative (no finiteness is needed, and the precondition is never opened); the row
  maximum, the exponential, the sum and the quotient are the same operations on both sides, in the same order.

  The three frames: the kernel's two (at the word-level values and at the ideal ones) are one proof, generic in
  the values, over relational proof data (`Proof/BodyData.lean`, `Proof/BodyDataW.lean`); the reference's is its
  run with the result dropped.  The ideal pass rewrote nothing, so `preserves` is trivial.
-/
import proofs.«140654_j38603166056700_2_alg».proof.Defs
import proofs.«140654_j38603166056700_2_alg».proof.Proof.Gen.Kernel
import proofs.«140654_j38603166056700_2_alg».proof.Proof.Gen.KernelIdeal
import proofs.«140654_j38603166056700_2_alg».proof.Proof.Gen.ReferenceIdeal
import proofs.«140654_j38603166056700_2_alg».proof.Proof.Gen.Pre_finite_inputs
import proofs.«140654_j38603166056700_2_alg».proof.Proof.BodyDataW
import proofs.«140654_j38603166056700_2_alg».proof.Proof.ValueOut
import proofs.«140654_j38603166056700_2_alg».proof.Proof.RefRead
import Idealize.ShloMosaic.Adequacy
import Idealize.ShloMosaic.Init

noncomputable section

namespace Cert.Proof

open Idealize.ShloMosaic Idealize.SL.Sem Cert.RowTile

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the layer of the same arguments. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
